-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S16 .f32) (main_arg7 : FVec F S128x16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S128x16 .f32 := Host.absf main_arg7
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x16 .f32) (main_arg6 : FVec F S16 .f32) (main_arg7 : FVec F S128x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S100000x16 : Shape := ⟨2, ![100000, 16]⟩
abbrev S4000x128 : Shape := ⟨2, ![4000, 128]⟩
abbrev S4000x1 : Shape := ⟨2, ![4000, 1]⟩
abbrev S4000x16 : Shape := ⟨2, ![4000, 16]⟩
abbrev S1x128 : Shape := ⟨2, ![1, 128]⟩
abbrev S600000x16 : Shape := ⟨2, ![600000, 16]⟩
abbrev S1x16 : Shape := ⟨2, ![1, 16]⟩
abbrev S4000 : Shape := ⟨1, ![4000]⟩

abbrev nBuf : Space → Nat
  | .hbm => 58
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .bf16⟩
  | .hbm, ⟨35, _⟩ => ⟨S600000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S100000x128, .f32⟩
  | .hbm, ⟨41, _⟩ => ⟨S100000x16, .f32⟩
  | .hbm, ⟨42, _⟩ => ⟨S100000x16, .bf16⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x16, .bf16⟩
  | .hbm, ⟨52, _⟩ => ⟨S600000x16, .f32⟩
  | .hbm, ⟨53, _⟩ => ⟨S_, .f32⟩
  | .hbm, ⟨54, _⟩ => ⟨S100000x16, .f32⟩
  | .hbm, ⟨55, _⟩ => ⟨S600000x1, .i32⟩
  | .hbm, ⟨56, _⟩ => ⟨S100000x16, .f32⟩
  | .hbm, ⟨57, _⟩ => ⟨S100000x16, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128x16, .f32⟩
  | .local _ .vmem, ⟨10, _⟩ => ⟨S4000x128, .f32⟩
  | .local _ .vmem, ⟨11, _⟩ => ⟨S4000x128, .f32⟩
  | .local _ .vmem, ⟨12, _⟩ => ⟨S4000x16, .f32⟩
  | .local _ .vmem, ⟨13, _⟩ => ⟨S4000x16, .f32⟩
  | .local _ .vmem, ⟨14, _⟩ => ⟨S4000x16, .f32⟩
  | .local _ .vmem, ⟨15, _⟩ => ⟨S4000x16, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S128x16, .f32⟩
  | .local _ .vmem, ⟨21, _⟩ => ⟨S16, .f32⟩
  | .local _ .vmem, ⟨22, _⟩ => ⟨S4000x16, .f32⟩
  | .local _ .vmem, ⟨23, _⟩ => ⟨S4000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x16_S128x16_0_0 : ∀ a, (![0, 0] : Fin 2 → Nat) a + S128x16.size a ≤ S128x16.size a
  h_S128x16 : 0 < S128x16.numel
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  shapeCasts_S4000x16_S4000x16 : S4000x16.ShapeCasts S4000x16
  broadcasts_S4000x1_S4000x16 : S4000x1.Broadcasts S4000x16
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  reduces_S4000x16_S4000 : S4000x16.Reduces [1] S4000
  shapeCasts_S4000_S4000x1 : S4000.ShapeCasts S4000x1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  dot_S4000x128_S128x16_S4000x16_1_0_0_1_n_n_wf : DotDims.WF S4000x128 S128x16 S4000x16 [1] [0] [0] [1] [] []
  gather_S100000x16_S600000x1_S600000x16_1_0_n_n_0_1_116_wf : GatherDims.WF S100000x16 S600000x1 S600000x16 [1] [0] [] [0] [] 1 ![1, 16]
  scatter_S100000x16_S600000x1_S600000x16_1_0_0_1_wf : ScatterDims.WF S100000x16 S600000x1 S600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x16.size a ≤ S128x16.size a
  hwx0_6 : ∀ i : grid0.Coords, EltTy.bits .f32 = 32 ∨ (Rect.block (s := S128x16) S128x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x16.size a ≤ S100000x16.size a
  hwx0_8 : ∀ i : grid0.Coords, EltTy.bits .f32 = 32 ∨ (Rect.block (s := S100000x16) S4000x16.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x16.size a ≤ S128x16.size a
  hwx1_3 : ∀ i : grid1.Coords, EltTy.bits .f32 = 32 ∨ (Rect.block (s := S128x16) S128x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x16.size a ≤ S100000x16.size a
  hwx1_5 : ∀ i : grid1.Coords, EltTy.bits .f32 = 32 ∨ (Rect.block (s := S100000x16) S4000x16.size (cc1_transform_5 i) (hinb1_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S100000x16_S600000x1_S600000x16_1_0_n_n_0_1_116 : GatherDims S100000x16 S600000x1 S600000x16 where
  offsetDims := [1]
  collapsedSliceDims := [0]
  operandBatchingDims := []
  startIndicesBatchingDims := []
  startIndexMap := [0]
  indexVectorDim := 1
  sliceSizes := ![1, 16]
  wf := gather_S100000x16_S600000x1_S600000x16_1_0_n_n_0_1_116_wf
def scatter_S100000x16_S600000x1_S600000x16_1_0_0_1 : ScatterDims S100000x16 S600000x1 S600000x16 where
  updateWindowDims := [1]
  insertedWindowDims := [0]
  scatterDimsToOperandDims := [0]
  indexVectorDim := 1
  wf := scatter_S100000x16_S600000x1_S600000x16_1_0_0_1_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S4000x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v37) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S4000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S100000x128, .f32⟩
  | .hbm, ⟨57, _⟩ => ⟨S600000x1, .i32⟩
  | .hbm, ⟨58, _⟩ => ⟨S100000x128, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S100000, .f32⟩
  | .hbm, ⟨63, _⟩ => ⟨S600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x16, .f32⟩
  | .hbm, ⟨72, _⟩ => ⟨S1x16, .f32⟩
  | .hbm, ⟨73, _⟩ => ⟨S100000x16, .f32⟩
  | .hbm, ⟨74, _⟩ => ⟨S100000x16, .f32⟩
  | .hbm, ⟨75, _⟩ => ⟨S100000x16, .f32⟩
  | .hbm, ⟨76, _⟩ => ⟨S100000x16, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x16, .f32⟩
  | .hbm, ⟨84, _⟩ => ⟨S100000x16, .f32⟩
  | .hbm, ⟨85, _⟩ => ⟨S100000x16, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x16, .f32⟩
  | .hbm, ⟨91, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«162514_j56891136803141_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«162514_j56891136803141_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.LibMeanLayer.lean ====
/-
  One mean-aggregation graph layer, entry by entry on the extended reals, in the two arrangements the two
  programs use, and the law that joins them.

  A layer takes, per node p, the SUM agg(p,·) of its in-neighbours' feature rows, the node's in-degree c(p), its own
  feature row h(p,·), two weight matrices and a bias, and returns

      max( Σ_k mean(p,k)·W_l(q,k) + b(q) + Σ_k h(p,k)·W_r(q,k) , 0 ),      mean(p,k) = agg(p,k) / max(c(p),1).

  One program divides the sum by the clamped degree; the other multiplies it by the reciprocal 1 / max(c(p),1), uses
  the weights already transposed, and adds the bias last. The clamped degree is at least 1, so it is never zero, and
  for a nonzero divisor d both a / d and a·(1/d) are a·d⁻¹ — whatever a is, infinite values included. Sums of three terms
  in two orders agree because addition of extended reals is commutative and associative. No finiteness is used.
-/
import Idealize.ShloMosaic.PureOps.Ideal
import Idealize.ShloMosaic.Lib.ValueIdx

noncomputable section

namespace MeanLayer

open Idealize.ShloMosaic Idealize.ShloMosaic.ValueIdx

/-- The f32 word of 1.0 denotes the number 1. -/
theorem one_f32 : Ideal.ofBits .f32 0x3F800000#32 = 1 := by
  simp [Ideal.ofBits, Ideal.ieee, -EReal.coe_mul]; norm_num

/-- A degree clamped below by 1 is positive, so it is not zero. -/
theorem clamp_ne_zero (c : EReal) : max c 1 ≠ 0 :=
  ne_of_gt (lt_of_lt_of_le zero_lt_one (le_max_right c 1))

/-- Multiplying by the reciprocal of a clamped degree is dividing by it, for EVERY extended real `a`: both sides are
    `a · (max c 1)⁻¹`, the divisor not being zero. -/
theorem mul_recip_clamp (a c : EReal) : a * Ideal.div 1 (max c 1) = Ideal.div a (max c 1) := by
  rw [Ideal.div, Ideal.div, if_neg (clamp_ne_zero c), if_neg (clamp_ne_zero c), one_mul]

/-- The same with the two ones spelt as the f32 word of 1.0. -/
theorem mul_recip_clamp_word (a c : EReal) :
    a * Ideal.div (Ideal.ofBits .f32 0x3F800000#32) (max c (Ideal.ofBits .f32 0x3F800000#32))
      = Ideal.div a (max c (Ideal.ofBits .f32 0x3F800000#32)) := by
  rw [one_f32]; exact mul_recip_clamp a c

/-- A matrix of extended reals over the index type of an `[a, b]` array, and a vector over that of an `[a]` array. -/
abbrev Mat (a b : ℕ) := (⟨2, ![a, b]⟩ : Shape).Idx → EReal
abbrev Row (a : ℕ) := (⟨1, ![a]⟩ : Shape).Idx → EReal

/-- Hidden unit (p, q) of one layer in the arrangement that multiplies by a reciprocal degree column `inv`, contracts
    against weights stored input-feature-major (`wl (k, q)`), adds the self term second and the bias last, and
    rectifies against the f32 zero word. -/
def hidden {n d e : ℕ} (agg : Mat n d) (inv : Mat n 1) (h : Mat n d) (wl wr : Mat d e) (b : Row e)
    (p : Fin n) (q : Fin e) : EReal :=
  max ((∑ k : Fin d, (agg (ix2 p k) * inv (ix2 p (0 : Fin 1))) * wl (ix2 k q))
        + (∑ k : Fin d, h (ix2 p k) * wr (ix2 k q)) + b (ix1 q))
      (Ideal.ofBits .f32 0x00000000#32)

/-- The layer as a whole array: entry `i` is hidden unit `(i 0, i 1)`. -/
def layer {n d e : ℕ} (agg : Mat n d) (inv : Mat n 1) (h : Mat n d) (wl wr : Mat d e) (b : Row e) : Mat n e :=
  fun i => hidden agg inv h wl wr b (i 0) (i 1)

theorem layer_apply {n d e : ℕ} (agg : Mat n d) (inv : Mat n 1) (h : Mat n d) (wl wr : Mat d e) (b : Row e)
    (p : Fin n) (q : Fin e) : layer agg inv h wl wr b (ix2 p q) = hidden agg inv h wl wr b p q := rfl

/-- Output unit (p, r) of the last stage: a second layer's hidden row contracted against the read-out weights
    (stored hidden-feature-major, `fw (j, r)`) plus the read-out bias. -/
def readout {n d e o : ℕ} (agg : Mat n d) (inv : Mat n 1) (h : Mat n d) (wl wr : Mat d e) (b : Row e)
    (fw : Mat e o) (fb : Row o) (p : Fin n) (r : Fin o) : EReal :=
  (∑ j : Fin e, hidden agg inv h wl wr b p j * fw (ix2 j r)) + fb (ix1 r)

/-- The last stage as a whole array. -/
def head {n d e o : ℕ} (agg : Mat n d) (inv : Mat n 1) (h : Mat n d) (wl wr : Mat d e) (b : Row e)
    (fw : Mat e o) (fb : Row o) : Mat n o :=
  fun i => readout agg inv h wl wr b fw fb (i 0) (i 1)

theorem head_apply {n d e o : ℕ} (agg : Mat n d) (inv : Mat n 1) (h : Mat n d) (wl wr : Mat d e) (b : Row e)
    (fw : Mat e o) (fb : Row o) (p : Fin n) (r : Fin o) :
    head agg inv h wl wr b fw fb (ix2 p r) = readout agg inv h wl wr b fw fb p r := rfl

/-- The joining law at one hidden unit: with the reciprocal column `1 / max(c p, 1)` and transposed weights, the
    reciprocal arrangement equals the dividing one (division first, bias second, self term last). -/
theorem hidden_eq_divided {n d e : ℕ} (agg : Mat n d) (c : Fin n → EReal) (inv : Mat n 1) (h : Mat n d)
    (wl wr : Mat d e) (Wl Wr : Mat e d) (b : Row e)
    (hinv : ∀ p, inv (ix2 p (0 : Fin 1))
      = Ideal.div (Ideal.ofBits .f32 0x3F800000#32) (max (c p) (Ideal.ofBits .f32 0x3F800000#32)))
    (hwl : ∀ k q, wl (ix2 k q) = Wl (ix2 q k)) (hwr : ∀ k q, wr (ix2 k q) = Wr (ix2 q k))
    (p : Fin n) (q : Fin e) :
    hidden agg inv h wl wr b p q
      = max ((∑ k : Fin d, Ideal.div (agg (ix2 p k)) (max (c p) (Ideal.ofBits .f32 0x3F800000#32)) * Wl (ix2 q k))
              + b (ix1 q) + (∑ k : Fin d, h (ix2 p k) * Wr (ix2 q k)))
            (Ideal.ofBits .f32 0x00000000#32) := by
  unfold hidden
  congr 1
  rw [add_right_comm]
  congr 1
  · congr 1
    refine Finset.sum_congr rfl fun k _ => ?_
    rw [hinv p, mul_recip_clamp_word, hwl]
  · refine Finset.sum_congr rfl fun k _ => ?_
    rw [hwr]

end MeanLayer

end
-- ==== Proof.LibSegLinear.lean ====
/-
  Linearity of a segment sum against a small matrix product, on the extended reals.

  Over a set S of edges, weights a e k, gathered features x e d and matrices W k d (all real numbers), summing the
  weighted features first and projecting afterwards,
      sum over k, d of (sum over e in S of a e k * x e d) * W k d,
  is the same number as projecting every edge first and summing the weighted projections,
      sum over e in S of (sum over k of a e k * (sum over d of x e d * W k d)).
  On the extended reals a product distributes over a sum only away from the infinities, so the law is stated for data
  that are coercions of reals: both sides are then the coercion of one real number, and the real identity is a
  reordering of a finite triple sum.
-/
import Mathlib.Data.EReal.Operations
import Mathlib.Algebra.BigOperators.Ring.Finset
import Mathlib.Algebra.BigOperators.Fin

open scoped BigOperators

namespace SegLinear

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum of coerced reals is a coerced real, hence finite. -/
theorem sum_coe_eq {ι : Type} (s : Finset ι) (f : ι → ℝ) :
    (∑ i ∈ s, (f i : EReal)) = ((∑ i ∈ s, f i : ℝ) : EReal) := (coe_sum s f).symm

/-- The real identity: weigh, sum over the edges and project, or project every edge, weigh and sum. -/
theorem real_law {ι κ δ : Type} [Fintype κ] [Fintype δ] (S : Finset ι) (a : ι → κ → ℝ) (x : ι → δ → ℝ)
    (W : κ → δ → ℝ) :
    (∑ k, ∑ d, (∑ e ∈ S, a e k * x e d) * W k d) = ∑ e ∈ S, ∑ k, a e k * ∑ d, x e d * W k d := by
  calc (∑ k, ∑ d, (∑ e ∈ S, a e k * x e d) * W k d)
      = ∑ k, ∑ d, ∑ e ∈ S, a e k * (x e d * W k d) := by
        refine Finset.sum_congr rfl fun k _ => Finset.sum_congr rfl fun d _ => ?_
        rw [Finset.sum_mul]
        exact Finset.sum_congr rfl fun e _ => mul_assoc _ _ _
    _ = ∑ k, ∑ e ∈ S, ∑ d, a e k * (x e d * W k d) := by
        refine Finset.sum_congr rfl fun k _ => Finset.sum_comm
    _ = ∑ e ∈ S, ∑ k, ∑ d, a e k * (x e d * W k d) := Finset.sum_comm
    _ = ∑ e ∈ S, ∑ k, a e k * ∑ d, x e d * W k d := by
        refine Finset.sum_congr rfl fun e _ => Finset.sum_congr rfl fun k _ => ?_
        rw [Finset.mul_sum]

/-- The law on the extended reals, for real data: the reference's order (segment sums, then the projections) against
    the kernel's (per-edge projections, then one segment sum). -/
theorem ereal_law {ι κ δ : Type} [Fintype κ] [Fintype δ] (S : Finset ι) (a : ι → κ → ℝ) (x : ι → δ → ℝ)
    (W : κ → δ → ℝ) :
    (∑ k, ∑ d, (∑ e ∈ S, ((a e k : EReal) * (x e d : EReal))) * (W k d : EReal))
      = ∑ e ∈ S, ∑ k, (a e k : EReal) * ∑ d, (x e d : EReal) * (W k d : EReal) := by
  have hl : (∑ k, ∑ d, (∑ e ∈ S, ((a e k : EReal) * (x e d : EReal))) * (W k d : EReal))
      = ((∑ k, ∑ d, (∑ e ∈ S, a e k * x e d) * W k d : ℝ) : EReal) := by
    rw [coe_sum]
    refine Finset.sum_congr rfl fun k _ => ?_
    rw [coe_sum]
    refine Finset.sum_congr rfl fun d _ => ?_
    rw [EReal.coe_mul, coe_sum]
    congr 1
  have hr : (∑ e ∈ S, ∑ k, (a e k : EReal) * ∑ d, (x e d : EReal) * (W k d : EReal))
      = ((∑ e ∈ S, ∑ k, a e k * ∑ d, x e d * W k d : ℝ) : EReal) := by
    rw [coe_sum]
    refine Finset.sum_congr rfl fun e _ => ?_
    rw [coe_sum]
    refine Finset.sum_congr rfl fun k _ => ?_
    rw [EReal.coe_mul, coe_sum]
    congr 1
  rw [hl, hr, real_law]

/-- A sum over the pairs (e, c') whose row satisfies P and whose column is c is the sum over the rows satisfying P
    of the entries in column c. -/
theorem sum_filter_pair {ι γ M : Type} [Fintype ι] [Fintype γ] [DecidableEq γ] [AddCommMonoid M]
    (P : ι → Prop) [DecidablePred P] (c : γ) (f : ι × γ → M) :
    (∑ j ∈ (Finset.univ : Finset (ι × γ)).filter (fun j => P j.1 ∧ j.2 = c), f j)
      = ∑ e ∈ (Finset.univ : Finset ι).filter P, f (e, c) := by
  classical
  refine Finset.sum_bij' (fun j _ => j.1) (fun e _ => (e, c)) ?_ ?_ ?_ ?_ ?_
  · intro j hj
    simp only [Finset.mem_filter, Finset.mem_univ, true_and] at hj ⊢
    exact hj.1
  · intro e he
    simp only [Finset.mem_filter, Finset.mem_univ, true_and] at he ⊢
    exact ⟨he, trivial⟩
  · intro j hj
    simp only [Finset.mem_filter, Finset.mem_univ, true_and] at hj
    obtain ⟨e, c'⟩ := j
    simp only at hj
    rw [hj.2]
  · intro e _
    rfl
  · intro j hj
    simp only [Finset.mem_filter, Finset.mem_univ, true_and] at hj
    obtain ⟨e, c'⟩ := j
    simp only at hj
    rw [hj.2]

end SegLinear
-- ==== Proof.Spec.lean ====
/-
  A two-layer mean-aggregation graph network with a log-softmax read-out, entry by entry on the extended reals, in
  the two arrangements the two programs use, and the law that joins them.

  Nodes 0 … n-1 carry feature rows x(v,·). An edge e has a source word and a destination word. A gather reads, for
  edge e, the row of the node src(e): the source word as a signed integer clamped into the table. A segment sum
  adds, into node v, the rows of the edges whose destination word is exactly v (a word outside the table lands
  nowhere): these edges are into(v). The clamped in-degree of v is deg(v) = max(|into(v)|, 1), and

      agg X (v, j)  =  sum over e in into(v) of X(src e, j).

  Both programs compute  h = max( (mean(x) · Wl + b1) + x · Wr , 0 )  and then the logits
  (mean(h) · W2l + b2) + h · W2r, followed by a row-wise log-softmax. They differ in two places.
    * One divides a segment sum by deg(v); the other multiplies it by the reciprocal 1 / deg(v). The degree is a
      nonzero real number, so both are the product with the real number 1/deg(v), whatever the sum is.
    * One takes the mean of the 128-wide rows h and projects it through W2l; the other projects every row of h
      first and takes the mean of the 16-wide projections. Moving the projection through the segment sum is
      distributivity, which on the extended reals holds only away from the infinities: it is used for real
      h and W2l, and h is real because x, Wl, b1 and Wr are.
-/
import Idealize.ShloMosaic.PureOps.Ideal
import Idealize.ShloMosaic.PureOps.Ideal.Laws
import Idealize.ShloMosaic.Lib.ValueIdx
import proofs.«162514_j56891136803141_2_alg».proof.Proof.LibMeanLayer
import proofs.«162514_j56891136803141_2_alg».proof.Proof.LibSegLinear

noncomputable section

open scoped BigOperators

namespace Sage

open Idealize.ShloMosaic Idealize.ShloMosaic.ValueIdx
open MeanLayer (Mat Row)

/-! ## Real numbers among the extended reals -/

/-- An extended real that is (the coercion of) a real number. -/
def IsR (a : EReal) : Prop := ∃ r : ℝ, a = (r : EReal)

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

/-- The coercion of the larger of two reals is the larger of their coercions. -/
theorem coe_max (r s : ℝ) : ((Max.max r s : ℝ) : EReal) = Max.max (r : EReal) (s : EReal) :=
  EReal.coe_strictMono.monotone.map_max

theorem IsR.max {a b : EReal} (ha : IsR a) (hb : IsR b) : IsR (max a b) := by
  obtain ⟨r, rfl⟩ := ha; obtain ⟨s, rfl⟩ := hb; exact ⟨Max.max r s, (coe_max r s).symm⟩

theorem isR_zero : IsR 0 := ⟨0, EReal.coe_zero.symm⟩

theorem isR_sum {ι : Type} (S : Finset ι) (f : ι → EReal) (h : ∀ i ∈ S, IsR (f i)) : IsR (∑ i ∈ S, f i) :=
  Finset.sum_induction f IsR (fun _ _ => IsR.add) isR_zero h

/-- The f32 zero word denotes 0. -/
theorem zero_f32 : Ideal.ofBits .f32 0x00000000#32 = 0 := Ideal.ofBits_zero_f32

theorem isR_zero_word : IsR (Ideal.ofBits .f32 0x00000000#32) := by rw [zero_f32]; exact isR_zero

/-! ## The graph -/

variable {n E : ℕ}

/-- The node whose row a gather reads for edge e: the source word as a signed integer, clamped into the table. -/
def src (hn : 0 < n) (s : IVec ⟨2, ![E, 1]⟩ 32) (e : Fin E) : Fin n :=
  ⟨min (s (ix2 e 0)).toInt.toNat (n - 1), by omega⟩

/-- The edges a segment sum adds into node v: those whose destination word, as a signed integer, is v. -/
def into (t : IVec ⟨2, ![E, 1]⟩ 32) (v : Fin n) : Finset (Fin E) :=
  Finset.univ.filter fun e => (t (ix2 e 0)).toInt = (v.val : Int)

/-- The clamped in-degree of v: ones summed over into(v) from the zero word, against the word of 1.0. -/
def deg (t : IVec ⟨2, ![E, 1]⟩ 32) (v : Fin n) : EReal :=
  max (Ideal.ofBits .f32 0x00000000#32 + ∑ _e ∈ into t v, Ideal.ofBits .f32 0x3F800000#32)
    (Ideal.ofBits .f32 0x3F800000#32)

/-- Entry (v, j) of the segment sum of the gathered rows of a table X. -/
def agg (hn : 0 < n) (s t : IVec ⟨2, ![E, 1]⟩ 32) {k : ℕ} (X : Mat n k) (v : Fin n) (j : Fin k) : EReal :=
  Ideal.ofBits .f32 0x00000000#32 + ∑ e ∈ into t v, X (ix2 (src hn s e) j)

/-- The clamped degree is a nonzero real number. -/
theorem deg_real (t : IVec ⟨2, ![E, 1]⟩ 32) (v : Fin n) : ∃ d : ℝ, d ≠ 0 ∧ deg t v = (d : EReal) := by
  refine ⟨Max.max (∑ _e ∈ into t v, (1 : ℝ)) 1, ne_of_gt (lt_of_lt_of_le one_pos (le_max_right _ _)), ?_⟩
  unfold deg
  rw [zero_f32, MeanLayer.one_f32, zero_add, coe_max, SegLinear.coe_sum]
  simp only [EReal.coe_one]

/-- Dividing by the clamped degree and multiplying by its reciprocal are the same product. -/
theorem mul_recip_deg (t : IVec ⟨2, ![E, 1]⟩ 32) (v : Fin n) (a : EReal) :
    a * Ideal.div (Ideal.ofBits .f32 0x3F800000#32) (deg t v) = Ideal.div a (deg t v) :=
  MeanLayer.mul_recip_clamp_word a _

/-- The reciprocal of the clamped degree is a real number r, and dividing by the degree is multiplying by r. -/
theorem recip_real (t : IVec ⟨2, ![E, 1]⟩ 32) (v : Fin n) :
    ∃ r : ℝ, ∀ a : EReal, Ideal.div a (deg t v) = a * (r : EReal) := by
  obtain ⟨d, hd, e⟩ := deg_real t v
  exact ⟨1 / d, fun a => by rw [e]; exact Ideal.div_coe hd a⟩

/-! ## The two arrangements -/

section Layers

variable (hn : 0 < n) (s t : IVec ⟨2, ![E, 1]⟩ 32) {a b c : ℕ}
  (x : Mat n a) (wl wr : Mat a b) (b1 : Row b) (w2l w2r : Mat b c) (b2 : Row c)

/-- Hidden unit (v, j), the segment sum multiplied by the reciprocal degree. -/
def hidK (v : Fin n) (j : Fin b) : EReal :=
  max ((∑ k : Fin a, (agg hn s t x v k * Ideal.div (Ideal.ofBits .f32 0x3F800000#32) (deg t v)) * wl (ix2 k j)
          + b1 (ix1 j))
        + ∑ k : Fin a, x (ix2 v k) * wr (ix2 k j))
      (Ideal.ofBits .f32 0x00000000#32)

/-- Hidden unit (v, j), the segment sum divided by the degree. -/
def hidR (v : Fin n) (j : Fin b) : EReal :=
  max ((∑ k : Fin a, Ideal.div (agg hn s t x v k) (deg t v) * wl (ix2 k j) + b1 (ix1 j))
        + ∑ k : Fin a, x (ix2 v k) * wr (ix2 k j))
      (Ideal.ofBits .f32 0x00000000#32)

/-- The hidden layer as whole arrays. -/
def hidKM : Mat n b := fun i => hidK hn s t x wl wr b1 (i 0) (i 1)
def hidRM : Mat n b := fun i => hidR hn s t x wl wr b1 (i 0) (i 1)

/-- The 16-wide projection of a hidden row, and the projected table. -/
def prjK (v : Fin n) (q : Fin c) : EReal := ∑ j : Fin b, hidK hn s t x wl wr b1 v j * w2l (ix2 j q)
def prjKM : Mat n c := fun i => prjK hn s t x wl wr b1 w2l (i 0) (i 1)

/-- Logit (v, q): project first, then the mean of the projections by the reciprocal degree. -/
def logitK (v : Fin n) (q : Fin c) : EReal :=
  (agg hn s t (prjKM hn s t x wl wr b1 w2l) v q * Ideal.div (Ideal.ofBits .f32 0x3F800000#32) (deg t v) + b2 (ix1 q))
    + ∑ j : Fin b, hidK hn s t x wl wr b1 v j * w2r (ix2 j q)

/-- Logit (v, q): the mean of the hidden rows by division, then the projection. -/
def logitR (v : Fin n) (q : Fin c) : EReal :=
  (∑ j : Fin b, Ideal.div (agg hn s t (hidRM hn s t x wl wr b1) v j) (deg t v) * w2l (ix2 j q) + b2 (ix1 q))
    + ∑ j : Fin b, hidR hn s t x wl wr b1 v j * w2r (ix2 j q)

/-- Log-softmax of a row z at q: shift by the row maximum (taken once more against the word of -∞), subtract the
    logarithm of the sum of the exponentials of the shifted row. -/
def lsm {c : ℕ} (z : Fin c → EReal) (q : Fin c) : EReal :=
  (z q - max (Ideal.ofBits .f32 0xFF800000#32) ((Finset.univ : Finset (Fin c)).fold max ⊥ z))
    - Ideal.log (∑ q' : Fin c,
        Ideal.exp (z q' - max (Ideal.ofBits .f32 0xFF800000#32) ((Finset.univ : Finset (Fin c)).fold max ⊥ z)))

/-- The two results, entry (v, q). -/
def outK (v : Fin n) (q : Fin c) : EReal := lsm (logitK hn s t x wl wr b1 w2l w2r b2 v) q
def outR (v : Fin n) (q : Fin c) : EReal := lsm (logitR hn s t x wl wr b1 w2l w2r b2 v) q

/-! ## The joining law -/

/-- The hidden units agree, whatever the data: reciprocal against division. -/
theorem hid_eq (v : Fin n) (j : Fin b) : hidK hn s t x wl wr b1 v j = hidR hn s t x wl wr b1 v j := by
  unfold hidK hidR
  simp only [mul_recip_deg]

theorem hidM_eq : hidKM hn s t x wl wr b1 = hidRM hn s t x wl wr b1 :=
  funext fun i => hid_eq hn s t x wl wr b1 (i 0) (i 1)

/-- A hidden unit of real data is a real number. -/
theorem hid_real (hx : ∀ i, IsR (x i)) (hwl : ∀ i, IsR (wl i)) (hwr : ∀ i, IsR (wr i)) (hb1 : ∀ i, IsR (b1 i))
    (v : Fin n) (j : Fin b) : IsR (hidK hn s t x wl wr b1 v j) := by
  obtain ⟨r, hr⟩ := recip_real t v
  unfold hidK
  refine IsR.max (IsR.add (IsR.add (isR_sum _ _ fun k _ => IsR.mul (IsR.mul ?_ ?_) (hwl _)) (hb1 _))
    (isR_sum _ _ fun k _ => IsR.mul (hx _) (hwr _))) isR_zero_word
  · unfold agg
    exact IsR.add isR_zero_word (isR_sum _ _ fun e _ => hx _)
  · rw [hr, MeanLayer.one_f32, one_mul]; exact ⟨r, rfl⟩

/-- Projecting then averaging against averaging then projecting, for real rows, real weights and a real factor. -/
theorem interchange {ι κ : Type} [Fintype κ] (S : Finset ι) (H : ι → κ → ℝ) (W : κ → ℝ) (ρ : ℝ) :
    (0 + ∑ e ∈ S, ∑ j : κ, (H e j : EReal) * (W j : EReal)) * (ρ : EReal)
      = ∑ j : κ, ((0 + ∑ e ∈ S, (H e j : EReal)) * (ρ : EReal)) * (W j : EReal) := by
  have hl : (0 + ∑ e ∈ S, ∑ j : κ, (H e j : EReal) * (W j : EReal)) * (ρ : EReal)
      = (((∑ e ∈ S, ∑ j : κ, H e j * W j) * ρ : ℝ) : EReal) := by
    rw [zero_add, EReal.coe_mul, SegLinear.coe_sum]
    refine congrArg (· * (ρ : EReal)) (Finset.sum_congr rfl fun e _ => ?_)
    rw [SegLinear.coe_sum]
    exact Finset.sum_congr rfl fun j _ => (EReal.coe_mul _ _).symm
  have hr : (∑ j : κ, ((0 + ∑ e ∈ S, (H e j : EReal)) * (ρ : EReal)) * (W j : EReal))
      = ((∑ j : κ, ((∑ e ∈ S, H e j) * ρ) * W j : ℝ) : EReal) := by
    rw [SegLinear.coe_sum]
    refine Finset.sum_congr rfl fun j _ => ?_
    rw [zero_add, EReal.coe_mul, EReal.coe_mul, SegLinear.coe_sum]
  rw [hl, hr]
  congr 1
  rw [Finset.sum_comm]
  simp only [Finset.sum_mul]
  exact Finset.sum_congr rfl fun j _ => Finset.sum_congr rfl fun e _ => by ring

/-- The logits agree for real features and real first-layer and projection weights. -/
theorem logit_eq (hx : ∀ i, IsR (x i)) (hwl : ∀ i, IsR (wl i)) (hwr : ∀ i, IsR (wr i)) (hb1 : ∀ i, IsR (b1 i))
    (hw2l : ∀ i, IsR (w2l i)) (v : Fin n) (q : Fin c) :
    logitK hn s t x wl wr b1 w2l w2r b2 v q = logitR hn s t x wl wr b1 w2l w2r b2 v q := by
  obtain ⟨r, hr⟩ := recip_real t v
  have hH : ∀ (u : Fin n) (j : Fin b), IsR (hidK hn s t x wl wr b1 u j) := hid_real hn s t x wl wr b1 hx hwl hwr hb1
  choose H hHe using hH
  choose W hW using hw2l
  unfold logitK logitR
  rw [← hidM_eq]
  simp only [← hid_eq]
  congr 2
  simp only [hr, MeanLayer.one_f32, one_mul]
  unfold agg prjKM prjK hidKM
  simp only [zero_f32]
  show (0 + ∑ e ∈ into t v, ∑ j : Fin b, hidK hn s t x wl wr b1 (src hn s e) j * w2l (ix2 j q)) * (r : EReal)
      = ∑ j : Fin b, ((0 + ∑ e ∈ into t v, hidK hn s t x wl wr b1 (src hn s e) j) * (r : EReal)) * w2l (ix2 j q)
  simp only [hHe, hW]
  exact interchange (into t v) (fun e j => H (src hn s e) j) (fun j => W (ix2 j q)) r

/-- The two results agree. -/
theorem out_eq (hx : ∀ i, IsR (x i)) (hwl : ∀ i, IsR (wl i)) (hwr : ∀ i, IsR (wr i)) (hb1 : ∀ i, IsR (b1 i))
    (hw2l : ∀ i, IsR (w2l i)) (v : Fin n) (q : Fin c) :
    outK hn s t x wl wr b1 w2l w2r b2 v q = outR hn s t x wl wr b1 w2l w2r b2 v q := by
  unfold outK outR
  rw [show logitK hn s t x wl wr b1 w2l w2r b2 v = logitR hn s t x wl wr b1 w2l w2r b2 v from
    funext fun q' => logit_eq hn s t x wl wr b1 w2l w2r b2 hx hwl hwr hb1 hw2l v q']

end Layers

/-! ## The dense halves over whole arrays

What one kernel region computes from the arrays it finds: the hidden layer and its projection from a table of segment
sums, the features and a column of reciprocal degrees; the result from a table of segment sums of projections, the
hidden layer and the same column. Chained through the segment sums they are the first arrangement above. -/

section Dense

variable {n a b c : ℕ}

/-- Hidden unit (v, q) from the segment sums A, the features x and the reciprocal column inv. -/
def hidE (A x : Mat n a) (inv : Mat n 1) (wl : Mat a b) (b1 : Row b) (wr : Mat a b) (v : Fin n) (q : Fin b) : EReal :=
  max ((∑ k : Fin a, (A (ix2 v k) * inv (ix2 v (0 : Fin 1))) * wl (ix2 k q) + b1 (ix1 q))
        + ∑ k : Fin a, x (ix2 v k) * wr (ix2 k q))
      (Ideal.ofBits .f32 0x00000000#32)

def hidEM (A x : Mat n a) (inv : Mat n 1) (wl : Mat a b) (b1 : Row b) (wr : Mat a b) : Mat n b :=
  fun i => hidE A x inv wl b1 wr (i 0) (i 1)

/-- Projection (v, q) of the hidden row. -/
def prjE (A x : Mat n a) (inv : Mat n 1) (wl : Mat a b) (b1 : Row b) (wr : Mat a b) (w2l : Mat b c)
    (v : Fin n) (q : Fin c) : EReal :=
  ∑ j : Fin b, hidE A x inv wl b1 wr v j * w2l (ix2 j q)

def prjEM (A x : Mat n a) (inv : Mat n 1) (wl : Mat a b) (b1 : Row b) (wr : Mat a b) (w2l : Mat b c) : Mat n c :=
  fun i => prjE A x inv wl b1 wr w2l (i 0) (i 1)

/-- Result (v, q) from the segment sums P of the projections, the hidden layer h and the reciprocal column. -/
def outE (P : Mat n c) (h : Mat n b) (inv : Mat n 1) (w2r : Mat b c) (b2 : Row c) (v : Fin n) (q : Fin c) : EReal :=
  lsm (fun q' : Fin c => (P (ix2 v q') * inv (ix2 v (0 : Fin 1)) + b2 (ix1 q'))
    + ∑ j : Fin b, h (ix2 v j) * w2r (ix2 j q')) q

def outEM (P : Mat n c) (h : Mat n b) (inv : Mat n 1) (w2r : Mat b c) (b2 : Row c) : Mat n c :=
  fun i => outE P h inv w2r b2 (i 0) (i 1)

variable {E : ℕ} (hn : 0 < n) (s t : IVec ⟨2, ![E, 1]⟩ 32)

/-- The segment sums of a table's gathered rows, and the reciprocal degree column, as whole arrays. -/
def aggM {k : ℕ} (X : Mat n k) : Mat n k := fun i => agg hn s t X (i 0) (i 1)
def invM : Mat n 1 := fun i => Ideal.div (Ideal.ofBits .f32 0x3F800000#32) (deg t (i 0))

/-- The two regions chained through the segment sums are the first arrangement. -/
theorem outE_chain (x : Mat n a) (wl wr : Mat a b) (b1 : Row b) (w2l w2r : Mat b c) (b2 : Row c) (v : Fin n) (q : Fin c) :
    outE (aggM hn s t (prjEM (aggM hn s t x) x (invM t) wl b1 wr w2l)) (hidEM (aggM hn s t x) x (invM t) wl b1 wr)
        (invM t) w2r b2 v q
      = outK hn s t x wl wr b1 w2l w2r b2 v q := rfl

end Dense

end Sage

end
-- ==== Proof.Tile0.lean ====
/-
  The first kernel's tile, read at an entry.

  A tile holds 4000 consecutive nodes. From the tile's rows of the segment sums A, of the features x and of the reciprocal
  degree column, and from the whole weight matrices, the body leaves two tiles: the hidden units

      h(p, q) = max( (sum over k of (A(p,k) * inv(p)) * Wl(k,q) + b(q)) + sum over k of x(p,k) * Wr(k,q) , 0 )

  and their 16-wide projections  sum over j of h(p,j) * W2l(j,q).  The changes of float format in the body are the identity
  on the extended reals, the matrix unit accumulating into zero is the plain sum over the contracted axis, the bias
  vector is repeated down the rows and the reciprocal column across the columns.
-/
import proofs.«162514_j56891136803141_2_alg».proof.Proof.Gen.KernelIdeal.Skeleton
import proofs.«162514_j56891136803141_2_alg».proof.Proof.LibDotRecord
import proofs.«162514_j56891136803141_2_alg».proof.Proof.LibRowOps
import proofs.«162514_j56891136803141_2_alg».proof.Proof.LibTileOps
import proofs.«162514_j56891136803141_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Cert.KernelIdeal Cert.KernelIdeal.Gen Idealize.ShloMosaic Idealize.ShloMosaic.ValueIdx

/-- The hidden tile at (p, q). -/
theorem hidden_apply (v0 : Vec Ideal S4000x1 .f32) (v2 v7 : Vec Ideal S4000x128 .f32) (v9 v11 : Vec Ideal S128x128 .f32)
    (v14 : Vec Ideal S128 .f32) (p : Fin 4000) (q : Fin 128) :
    k0_pay1 (F := Ideal) v0 v2 v7 v9 v11 v14 (ix2 p q)
      = max ((∑ k : Fin 128, (v2 (ix2 p k) * v0 (ix2 p (0 : Fin 1))) * v9 (ix2 k q) + v14 (ix1 q))
              + ∑ k : Fin 128, v7 (ix2 p k) * v11 (ix2 k q))
          (Ideal.ofBits .f32 0x00000000#32) := by
  unfold k0_pay1
  simp only [maximumf_apply, addf_apply, broadcast_apply, Idealize.ShloMosaic.matmul]
  rw [DotRecord.matmul_zero_apply _ rfl rfl rfl rfl rfl rfl, DotRecord.matmul_zero_apply _ rfl rfl rfl rfl rfl rfl,
    Hmu.Lib.rowVec_apply]
  simp only [truncf_apply, mulf_apply, shapeCast_self, Gcn.Lib.broadcastTo_a1_ab_apply]
  rfl

/-- The projected tile at (p, q): the hidden row against a column of the projection weights. -/
theorem projected_apply (v0 : Vec Ideal S4000x1 .f32) (v2 v7 : Vec Ideal S4000x128 .f32) (v9 v11 : Vec Ideal S128x128 .f32)
    (v14 : Vec Ideal S128 .f32) (v24 : Vec Ideal S128x16 .f32) (p : Fin 4000) (q : Fin 16) :
    k0_pay2 (F := Ideal) v0 v2 v7 v9 v11 v14 v24 (ix2 p q)
      = ∑ j : Fin 128, k0_pay1 (F := Ideal) v0 v2 v7 v9 v11 v14 (ix2 p j) * v24 (ix2 j q) := by
  unfold k0_pay2
  simp only [Idealize.ShloMosaic.matmul]
  rw [DotRecord.matmul_zero_apply _ rfl rfl rfl rfl rfl rfl]
  simp only [truncf_apply]

/-- Row p of tile number tv (of 25 tiles of 4000 rows) is node 4000·tv + p. -/
def node (tv : ℕ) (ht : tv < 25) (p : Fin 4000) : Fin 100000 := ⟨tv * 4000 + p.val, by have := p.isLt; omega⟩

open MeanLayer (Mat Row)

/-- The hidden tile of tile number tv, whose blocks are the tile's rows of the whole arrays, is the tile's rows of the
    hidden layer of those arrays. -/
theorem tile_hidden (A x : Mat 100000 128) (inv : Mat 100000 1) (wl : Mat 128 128) (b1 : Row 128) (wr : Mat 128 128)
    (tv : ℕ) (ht : tv < 25)
    (v0 : Vec Ideal S4000x1 .f32) (v2 v7 : Vec Ideal S4000x128 .f32) (v9 v11 : Vec Ideal S128x128 .f32)
    (v14 : Vec Ideal S128 .f32)
    (h2 : ∀ (p : Fin 4000) (k : Fin 128), v2 (ix2 p k) = A (ix2 (node tv ht p) k))
    (h7 : ∀ (p : Fin 4000) (k : Fin 128), v7 (ix2 p k) = x (ix2 (node tv ht p) k))
    (h0 : ∀ p : Fin 4000, v0 (ix2 p (0 : Fin 1)) = inv (ix2 (node tv ht p) (0 : Fin 1)))
    (h9 : ∀ (k q : Fin 128), v9 (ix2 k q) = wl (ix2 k q))
    (h11 : ∀ (k q : Fin 128), v11 (ix2 k q) = wr (ix2 k q))
    (h14 : ∀ q : Fin 128, v14 (ix1 q) = b1 (ix1 q)) (p : Fin 4000) (q : Fin 128) :
    k0_pay1 (F := Ideal) v0 v2 v7 v9 v11 v14 (ix2 p q) = Sage.hidE A x inv wl b1 wr (node tv ht p) q := by
  rw [hidden_apply]
  unfold Sage.hidE
  simp only [h2, h7, h0, h9, h11, h14]

/-- The projected tile likewise. -/
theorem tile_projected (A x : Mat 100000 128) (inv : Mat 100000 1) (wl : Mat 128 128) (b1 : Row 128) (wr : Mat 128 128)
    (w2l : Mat 128 16) (tv : ℕ) (ht : tv < 25)
    (v0 : Vec Ideal S4000x1 .f32) (v2 v7 : Vec Ideal S4000x128 .f32) (v9 v11 : Vec Ideal S128x128 .f32)
    (v14 : Vec Ideal S128 .f32) (v24 : Vec Ideal S128x16 .f32)
    (h2 : ∀ (p : Fin 4000) (k : Fin 128), v2 (ix2 p k) = A (ix2 (node tv ht p) k))
    (h7 : ∀ (p : Fin 4000) (k : Fin 128), v7 (ix2 p k) = x (ix2 (node tv ht p) k))
    (h0 : ∀ p : Fin 4000, v0 (ix2 p (0 : Fin 1)) = inv (ix2 (node tv ht p) (0 : Fin 1)))
    (h9 : ∀ (k q : Fin 128), v9 (ix2 k q) = wl (ix2 k q))
    (h11 : ∀ (k q : Fin 128), v11 (ix2 k q) = wr (ix2 k q))
    (h14 : ∀ q : Fin 128, v14 (ix1 q) = b1 (ix1 q))
    (h24 : ∀ (j : Fin 128) (q : Fin 16), v24 (ix2 j q) = w2l (ix2 j q)) (p : Fin 4000) (q : Fin 16) :
    k0_pay2 (F := Ideal) v0 v2 v7 v9 v11 v14 v24 (ix2 p q) = Sage.prjE A x inv wl b1 wr w2l (node tv ht p) q := by
  rw [projected_apply]
  unfold Sage.prjE
  refine Finset.sum_congr rfl fun j _ => ?_
  rw [tile_hidden A x inv wl b1 wr tv ht v0 v2 v7 v9 v11 v14 h2 h7 h0 h9 h11 h14 p j, h24]

end Cert.KernelIdeal.Tile

end
-- ==== Proof.Tile1.lean ====
/-
  The second kernel's tile, read at an entry.

  From the tile's rows of the segment sums of the projections, of the hidden units and of the reciprocal degree column,
  and from the whole root weights and bias, the body forms the logits

      z(p, q) = (P(p,q) * inv(p) + b(q)) + sum over j of h(p,j) * Wr(j,q)

  and leaves their row-wise log-softmax: the row maximum (a lane reduction from -∞, taken once more against -∞), the
  shifted row, the lane sum of its exponentials, its logarithm, the difference.
-/
import proofs.«162514_j56891136803141_2_alg».proof.Proof.Gen.KernelIdeal.Skeleton
import proofs.«162514_j56891136803141_2_alg».proof.Proof.LibDotRecord
import proofs.«162514_j56891136803141_2_alg».proof.Proof.LibRowOps
import proofs.«162514_j56891136803141_2_alg».proof.Proof.LibTileOps
import proofs.«162514_j56891136803141_2_alg».proof.Proof.Spec
import proofs.«162514_j56891136803141_2_alg».proof.Proof.Tile0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Cert.KernelIdeal Cert.KernelIdeal.Gen Idealize.ShloMosaic Idealize.ShloMosaic.ValueIdx

/-- The exponential and the logarithm of a vector, at an index. -/
theorem vexp_apply {s : Shape} {φ : FTy} (x : FVec Ideal s φ) (i : s.Idx) : exp x i = Ideal.exp (x i) := rfl
theorem vlog_apply {s : Shape} {φ : FTy} (x : FVec Ideal s φ) (i : s.Idx) : log x i = Ideal.log (x i) := rfl

/-- The logits of a tile, as the body forms them from its loads. -/
def logits (v0 : Vec Ideal S4000x1 .f32) (v2 : Vec Ideal S4000x16 .f32) (v6 : Vec Ideal S4000x128 .f32)
    (v9 : Vec Ideal S128x16 .f32) (v11 : Vec Ideal S16 .f32) : FVec Ideal S4000x16 .f32 :=
  addf (addf (mulf (shapeCast S4000x16 v2 shapeCasts_S4000x16_S4000x16)
        (broadcastTo S4000x16 (shapeCast S4000x1 v0 shapeCasts_S4000x1_S4000x1) broadcasts_S4000x1_S4000x16))
      (broadcastTo S4000x16 (shapeCast S1x16 v11 shapeCasts_S16_S1x16) broadcasts_S1x16_S4000x16))
    (matmul dot_S4000x128_S128x16_S4000x16_1_0_0_1_n_n none
      (truncf .bf16 (shapeCast S4000x128 v6 shapeCasts_S4000x128_S4000x128) bitsLt_bf16_f32)
      (truncf .bf16 v9 bitsLt_bf16_f32) (constant S4000x16 .f32 0x00000000#32))

/-- The row maxima of a tile z (a lane reduction from -∞, taken once more against -∞), as a column repeated across
    the tile's columns. -/
def rowMaxCol (z : FVec Ideal S4000x16 .f32) : FVec Ideal S4000x16 .f32 :=
  broadcastTo S4000x16 (shapeCast S4000x1
    (maximumf (broadcast S4000 (Scalar.ofBits .f32 0xFF800000#32))
      (multiReduction .maximumf [1] S4000 z 0xFF800000#32 reduces_S4000x16_S4000 (.inl rfl) rfl))
    shapeCasts_S4000_S4000x1) broadcasts_S4000x1_S4000x16

/-- The logarithm of the row sums of the exponentials of a tile y, repeated across the tile's columns. -/
def logSumCol (y : FVec Ideal S4000x16 .f32) : FVec Ideal S4000x16 .f32 :=
  broadcastTo S4000x16 (log (shapeCast S4000x1
    (multiReduction .add [1] S4000 (exp y) 0x00000000#32 reduces_S4000x16_S4000 (.inl rfl) rfl)
    shapeCasts_S4000_S4000x1)) broadcasts_S4000x1_S4000x16

/-- The body's row-wise log-softmax of a tile z. -/
def lsmTile (z : FVec Ideal S4000x16 .f32) : FVec Ideal S4000x16 .f32 :=
  subf (subf z (rowMaxCol z)) (logSumCol (subf z (rowMaxCol z)))

/-- The printed payload is the log-softmax tail applied to the logits. -/
theorem pay_eq (v0 : Vec Ideal S4000x1 .f32) (v2 : Vec Ideal S4000x16 .f32) (v6 : Vec Ideal S4000x128 .f32)
    (v9 : Vec Ideal S128x16 .f32) (v11 : Vec Ideal S16 .f32) :
    k1_pay1 (F := Ideal) v0 v2 v6 v9 v11 = lsmTile (logits v0 v2 v6 v9 v11) := rfl

/-- The logits at (p, q). -/
theorem logits_apply (v0 : Vec Ideal S4000x1 .f32) (v2 : Vec Ideal S4000x16 .f32) (v6 : Vec Ideal S4000x128 .f32)
    (v9 : Vec Ideal S128x16 .f32) (v11 : Vec Ideal S16 .f32) (p : Fin 4000) (q : Fin 16) :
    logits v0 v2 v6 v9 v11 (ix2 p q)
      = (v2 (ix2 p q) * v0 (ix2 p (0 : Fin 1)) + v11 (ix1 q)) + ∑ j : Fin 128, v6 (ix2 p j) * v9 (ix2 j q) := by
  unfold logits
  simp only [addf_apply, Idealize.ShloMosaic.matmul]
  rw [DotRecord.matmul_zero_apply _ rfl rfl rfl rfl rfl rfl, Hmu.Lib.rowVec_apply]
  simp only [truncf_apply, mulf_apply, shapeCast_self, Gcn.Lib.broadcastTo_a1_ab_apply]

theorem rowMaxCol_apply (z : FVec Ideal S4000x16 .f32) (r : Fin 4000) (c : Fin 16) :
    rowMaxCol z (ix2 r c)
      = max (Ideal.ofBits .f32 0xFF800000#32) ((Finset.univ : Finset (Fin 16)).fold max ⊥ (fun k => z (ix2 r k))) := by
  unfold rowMaxCol
  refine (Gcn.Lib.broadcastTo_a1_ab_apply _ _ r c).trans ((Gcn.Lib.shapeCast_a_a1_apply _ _ r 0).trans ?_)
  exact congrArg (max (Ideal.ofBits .f32 0xFF800000#32)) (Gcn.Lib.rowMax_apply z _ _ _ r)

theorem logSumCol_apply (y : FVec Ideal S4000x16 .f32) (r : Fin 4000) (c : Fin 16) :
    logSumCol y (ix2 r c) = Ideal.log (∑ k : Fin 16, Ideal.exp (y (ix2 r k))) := by
  unfold logSumCol
  refine (Gcn.Lib.broadcastTo_a1_ab_apply _ _ r c).trans ?_
  refine congrArg Ideal.log ((Gcn.Lib.shapeCast_a_a1_apply _ _ r 0).trans ?_)
  exact Gcn.Lib.rowSum_apply (exp y) _ _ _ r

/-- The log-softmax tail at (p, q): the log-softmax of row p of z. -/
theorem lsmTile_apply (z : FVec Ideal S4000x16 .f32) (p : Fin 4000) (q : Fin 16) :
    lsmTile z (ix2 p q) = Sage.lsm (fun q' : Fin 16 => z (ix2 p q')) q := by
  unfold lsmTile Sage.lsm
  show (z (ix2 p q) - rowMaxCol z (ix2 p q)) - logSumCol (subf z (rowMaxCol z)) (ix2 p q) = _
  rw [rowMaxCol_apply, logSumCol_apply]
  simp only [subf_apply, rowMaxCol_apply]

/-- The output tile at (p, q): the log-softmax of row p of the logits. -/
theorem output_apply (v0 : Vec Ideal S4000x1 .f32) (v2 : Vec Ideal S4000x16 .f32) (v6 : Vec Ideal S4000x128 .f32)
    (v9 : Vec Ideal S128x16 .f32) (v11 : Vec Ideal S16 .f32) (p : Fin 4000) (q : Fin 16) :
    k1_pay1 (F := Ideal) v0 v2 v6 v9 v11 (ix2 p q)
      = Sage.lsm (fun q' : Fin 16 => (v2 (ix2 p q') * v0 (ix2 p (0 : Fin 1)) + v11 (ix1 q'))
          + ∑ j : Fin 128, v6 (ix2 p j) * v9 (ix2 j q')) q := by
  rw [pay_eq, lsmTile_apply]
  exact congrArg (fun f => Sage.lsm f q) (funext fun q' => logits_apply v0 v2 v6 v9 v11 p q')

open MeanLayer (Mat Row)

/-- The output tile of tile number tv, whose blocks are the tile's rows of the whole arrays, is the tile's rows of the
    result of those arrays. -/
theorem tile_output (P : Mat 100000 16) (h : Mat 100000 128) (inv : Mat 100000 1) (w2r : Mat 128 16) (b2 : Row 16)
    (tv : ℕ) (ht : tv < 25)
    (v0 : Vec Ideal S4000x1 .f32) (v2 : Vec Ideal S4000x16 .f32) (v6 : Vec Ideal S4000x128 .f32)
    (v9 : Vec Ideal S128x16 .f32) (v11 : Vec Ideal S16 .f32)
    (h2 : ∀ (p : Fin 4000) (q : Fin 16), v2 (ix2 p q) = P (ix2 (node tv ht p) q))
    (h6 : ∀ (p : Fin 4000) (j : Fin 128), v6 (ix2 p j) = h (ix2 (node tv ht p) j))
    (h0 : ∀ p : Fin 4000, v0 (ix2 p (0 : Fin 1)) = inv (ix2 (node tv ht p) (0 : Fin 1)))
    (h9 : ∀ (j : Fin 128) (q : Fin 16), v9 (ix2 j q) = w2r (ix2 j q))
    (h11 : ∀ q : Fin 16, v11 (ix1 q) = b2 (ix1 q)) (p : Fin 4000) (q : Fin 16) :
    k1_pay1 (F := Ideal) v0 v2 v6 v9 v11 (ix2 p q) = Sage.outE P h inv w2r b2 (node tv ht p) q := by
  rw [output_apply]
  unfold Sage.outE
  simp only [h2, h6, h0, h9, h11]

end Cert.KernelIdeal.Tile

end
-- ==== Proof.Blocks0.lean ====
/-
  Region 0 (the hidden layer and its projection): from blocks to whole arrays.

  The grid has 25 points; at point t every row-tiled window holds rows 4000·t … 4000·t + 3999 of its array, and the weight and
  bias windows hold their whole arrays. What point t writes back through an output window is therefore the tile's rows
  of ONE whole-array function of the arrays the region finds, and the 25 blocks tile the output arrays: after the region
  the two output arrays hold the hidden layer and its projection of the arrays found at entry.
-/
import proofs.«162514_j56891136803141_2_alg».proof.Proof.Gen.KernelIdeal.Frame
import proofs.«162514_j56891136803141_2_alg».proof.Proof.Tile0
import proofs.«162514_j56891136803141_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: a row-tiled window's block index at point t is (t, 0), a whole
    window's is zero. -/
theorem idx0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

theorem lt0 (t : Fin cfg0.N) : t.val < 25 := by
  have h : t.val < grid0.N := t.isLt
  rw [N_0] at h; exact h

/-- Window 0's block at point t: rows 4000·t … of its array. -/
theorem blk0_0 (c : Dev nD) (t : Fin cfg0.N) (p : Fin 4000) (q : Fin 128) :
    iblk0 V c 0 t (ix2 p q) = V c main_v24 (ix2 (Tile.node t.val (lt0 t) p) q) := by
  obtain ⟨e0, e1, e2, e3, e4, e5, e6, e7, e8, e9, e10, e11, e12, e13, e14, e15, e16⟩ := idx0 t
  show V c main_v24 (((cfg0.win 0).blk t).view.emb (ix2 p q)) = _
  refine congrArg (V c main_v24) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * q.val = q.val; omega

/-- Window 1's block at point t: rows 4000·t … of its array. -/
theorem blk0_1 (c : Dev nD) (t : Fin cfg0.N) (p : Fin 4000) (q : Fin 128) :
    iblk0 V c 1 t (ix2 p q) = V c main_arg0 (ix2 (Tile.node t.val (lt0 t) p) q) := by
  obtain ⟨e0, e1, e2, e3, e4, e5, e6, e7, e8, e9, e10, e11, e12, e13, e14, e15, e16⟩ := idx0 t
  show V c main_arg0 (((cfg0.win 1).blk t).view.emb (ix2 p q)) = _
  refine congrArg (V c main_arg0) (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * q.val = q.val; omega

/-- Window 2's block at point t: rows 4000·t … of its array. -/
theorem blk0_2 (c : Dev nD) (t : Fin cfg0.N) (p : Fin 4000) (q : Fin 1) :
    iblk0 V c 2 t (ix2 p q) = V c main_v12 (ix2 (Tile.node t.val (lt0 t) p) q) := by
  obtain ⟨e0, e1, e2, e3, e4, e5, e6, e7, e8, e9, e10, e11, e12, e13, e14, e15, e16⟩ := idx0 t
  show V c main_v12 (((cfg0.win 2).blk t).view.emb (ix2 p q)) = _
  refine congrArg (V c main_v12) (funext fun a => Fin.ext ?_)
  match a with
  | ⟨0, _⟩ => show win0_2.index t (0 : Fin 2) * 4000 + 1 * p.val = t.val * 4000 + p.val; omega
  | ⟨1, _⟩ => show win0_2.index t (1 : Fin 2) * 1 + 1 * q.val = q.val; omega

/-- Window 3's block at every point: its whole array. -/
theorem blk0_3 (c : Dev nD) (t : Fin cfg0.N) (p : Fin 128) (q : Fin 128) :
    iblk0 V c 3 t (ix2 p q) = V c main_arg2 (ix2 p q) := by
  obtain ⟨e0, e1, e2, e3, e4, e5, e6, e7, e8, e9, e10, e11, e12, e13, e14, e15, e16⟩ := idx0 t
  show V c main_arg2 (((cfg0.win 3).blk t).view.emb (ix2 p q)) = _
  refine congrArg (V c main_arg2) (funext fun a => Fin.ext ?_)
  match a with
  | ⟨0, _⟩ => show win0_3.index t (0 : Fin 2) * 128 + 1 * p.val = p.val; omega
  | ⟨1, _⟩ => show win0_3.index t (1 : Fin 2) * 128 + 1 * q.val = q.val; omega

/-- Window 4's block at every point: its whole array. -/
theorem blk0_4 (c : Dev nD) (t : Fin cfg0.N) (q : Fin 128) :
    iblk0 V c 4 t (ix1 q) = V c main_arg3 (ix1 q) := by
  obtain ⟨e0, e1, e2, e3, e4, e5, e6, e7, e8, e9, e10, e11, e12, e13, e14, e15, e16⟩ := idx0 t
  show V c main_arg3 (((cfg0.win 4).blk t).view.emb (ix1 q)) = _
  refine congrArg (V c main_arg3) (funext fun a => Fin.ext ?_)
  match a with
  | ⟨0, _⟩ => show win0_4.index t (0 : Fin 1) * 128 + 1 * q.val = q.val; omega

/-- Window 5's block at every point: its whole array. -/
theorem blk0_5 (c : Dev nD) (t : Fin cfg0.N) (p : Fin 128) (q : Fin 128) :
    iblk0 V c 5 t (ix2 p q) = V c main_arg4 (ix2 p q) := by
  obtain ⟨e0, e1, e2, e3, e4, e5, e6, e7, e8, e9, e10, e11, e12, e13, e14, e15, e16⟩ := idx0 t
  show V c main_arg4 (((cfg0.win 5).blk t).view.emb (ix2 p q)) = _
  refine congrArg (V c main_arg4) (funext fun a => Fin.ext ?_)
  match a with
  | ⟨0, _⟩ => show win0_5.index t (0 : Fin 2) * 128 + 1 * p.val = p.val; omega
  | ⟨1, _⟩ => show win0_5.index t (1 : Fin 2) * 128 + 1 * q.val = q.val; omega

/-- Window 6's block at every point: its whole array. -/
theorem blk0_6 (c : Dev nD) (t : Fin cfg0.N) (p : Fin 128) (q : Fin 16) :
    iblk0 V c 6 t (ix2 p q) = V c main_arg5 (ix2 p q) := by
  obtain ⟨e0, e1, e2, e3, e4, e5, e6, e7, e8, e9, e10, e11, e12, e13, e14, e15, e16⟩ := idx0 t
  show V c main_arg5 (((cfg0.win 6).blk t).view.emb (ix2 p q)) = _
  refine congrArg (V c main_arg5) (funext fun a => Fin.ext ?_)
  match a with
  | ⟨0, _⟩ => show win0_6.index t (0 : Fin 2) * 128 + 1 * p.val = p.val; omega
  | ⟨1, _⟩ => show win0_6.index t (1 : Fin 2) * 16 + 1 * q.val = q.val; omega

/-- Where output window 7's block at point t sits in its array. -/
theorem emb0_7 (t : Fin cfg0.N) (p : Fin 4000) (q : Fin 128) :
    ((cfg0.win 7).blk t).view.emb (ix2 p q) = ix2 (Tile.node t.val (lt0 t) p) q := by
  obtain ⟨e0, e1, e2, e3, e4, e5, e6, e7, e8, e9, e10, e11, e12, e13, e14, e15, e16⟩ := idx0 t
  refine funext fun a => Fin.ext ?_
  match a with
  | ⟨0, _⟩ => show win0_7.index t (0 : Fin 2) * 4000 + 1 * p.val = t.val * 4000 + p.val; omega
  | ⟨1, _⟩ => show win0_7.index t (1 : Fin 2) * 128 + 1 * q.val = q.val; omega

/-- An index of the array is in point t's block iff each coordinate is in the block's range on its axis. -/
theorem mem_blk0_7 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v25_0).slice (win0_7.rect t)).set ↔ _
  rw [View.set_slice_whole, Rect.mem_set_unit]
  exact Iff.rfl

/-- The 25 blocks of 4000 rows tile the array: row r lies in the block of point r / 4000. -/
theorem cover0_7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : grid0.N = 25 := N_0
  have ht : (i 0).val / 4000 < grid0.N := by rw [hN]; omega
  refine ⟨⟨(i 0).val / 4000, ht⟩, flush0_7 _, ?_⟩
  rw [mem_blk0_7]
  obtain ⟨e0, e1, e2, e3, e4, e5, e6, e7, e8, e9, e10, e11, e12, e13, e14, e15, e16⟩ := idx0 ⟨(i 0).val / 4000, ht⟩
  intro a
  match a with
  | ⟨0, _⟩ =>
    show win0_7.index ⟨(i 0).val / 4000, ht⟩ (0 : Fin 2) * 4000 ≤ (i 0).val ∧ (i 0).val < win0_7.index ⟨(i 0).val / 4000, ht⟩ (0 : Fin 2) * 4000 + 4000
    rw [e13]
    show (i 0).val / 4000 * 4000 ≤ (i 0).val ∧ (i 0).val < (i 0).val / 4000 * 4000 + 4000
    omega
  | ⟨1, _⟩ =>
    show win0_7.index ⟨(i 0).val / 4000, ht⟩ (1 : Fin 2) * 128 ≤ (i 1).val ∧ (i 1).val < win0_7.index ⟨(i 0).val / 4000, ht⟩ (1 : Fin 2) * 128 + 128
    rw [e14]
    omega

/-- Where output window 8's block at point t sits in its array. -/
theorem emb0_8 (t : Fin cfg0.N) (p : Fin 4000) (q : Fin 16) :
    ((cfg0.win 8).blk t).view.emb (ix2 p q) = ix2 (Tile.node t.val (lt0 t) p) q := by
  obtain ⟨e0, e1, e2, e3, e4, e5, e6, e7, e8, e9, e10, e11, e12, e13, e14, e15, e16⟩ := idx0 t
  refine funext fun a => Fin.ext ?_
  match a with
  | ⟨0, _⟩ => show win0_8.index t (0 : Fin 2) * 4000 + 1 * p.val = t.val * 4000 + p.val; omega
  | ⟨1, _⟩ => show win0_8.index t (1 : Fin 2) * 16 + 1 * q.val = q.val; omega

/-- An index of the array is in point t's block iff each coordinate is in the block's range on its axis. -/
theorem mem_blk0_8 (t : Fin cfg0.N) (i : S100000x16.Idx) :
    i ∈ ((cfg0.win 8).blk t).view.set ↔ ∀ a : Fin 2, win0_8.index t a * S4000x16.size a ≤ (i a).val ∧ (i a).val < win0_8.index t a * S4000x16.size a + S4000x16.size a := by
  show i ∈ ((View.whole main_v25_1).slice (win0_8.rect t)).set ↔ _
  rw [View.set_slice_whole, Rect.mem_set_unit]
  exact Iff.rfl

/-- The 25 blocks of 4000 rows tile the array: row r lies in the block of point r / 4000. -/
theorem cover0_8 (i : S100000x16.Idx) :
    ∃ t : Fin cfg0.N, (cfg0.win 8).flush t = true ∧ i ∈ ((cfg0.win 8).blk t).view.set := by
  have hi0 : (i 0).val < 100000 := (i 0).isLt
  have hi1 : (i 1).val < 16 := (i 1).isLt
  have hN : grid0.N = 25 := N_0
  have ht : (i 0).val / 4000 < grid0.N := by rw [hN]; omega
  refine ⟨⟨(i 0).val / 4000, ht⟩, flush0_8 _, ?_⟩
  rw [mem_blk0_8]
  obtain ⟨e0, e1, e2, e3, e4, e5, e6, e7, e8, e9, e10, e11, e12, e13, e14, e15, e16⟩ := idx0 ⟨(i 0).val / 4000, ht⟩
  intro a
  match a with
  | ⟨0, _⟩ =>
    show win0_8.index ⟨(i 0).val / 4000, ht⟩ (0 : Fin 2) * 4000 ≤ (i 0).val ∧ (i 0).val < win0_8.index ⟨(i 0).val / 4000, ht⟩ (0 : Fin 2) * 4000 + 4000
    rw [e15]
    show (i 0).val / 4000 * 4000 ≤ (i 0).val ∧ (i 0).val < (i 0).val / 4000 * 4000 + 4000
    omega
  | ⟨1, _⟩ =>
    show win0_8.index ⟨(i 0).val / 4000, ht⟩ (1 : Fin 2) * 16 ≤ (i 1).val ∧ (i 1).val < win0_8.index ⟨(i 0).val / 4000, ht⟩ (1 : Fin 2) * 16 + 16
    rw [e16]
    omega

/-- WHAT POINT t WRITES BACK through window 7: the tile's rows of the hidden layer of the arrays found at entry. -/
theorem flushed0_7 (c : Dev nD) (t : Fin cfg0.N) :
    (dat0 V c).flushed 7 t = ((cfg0.win 7).blk t).view.read (Elt Ideal)
      (Sage.hidEM (V c main_v24) (V c main_arg0) (V c main_v12) (V c main_arg2) (V c main_arg3) (V c main_arg4)) := by
  show (cfg0.win 7).cut (grid0.coords t) ((dat0 V c).after 7 t) = _
  rw [after0_7]
  unfold out0_7
  rw [View.canon_unit_zero hz2]
  simp only [View.ld_unit_zero (S := S4000x128) hz2, View.ld_unit_zero (S := S4000x1) hz2,
    View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  refine (Tile.tile_hidden (V c main_v24) (V c main_arg0) (V c main_v12) (V c main_arg2) (V c main_arg3) (V c main_arg4)
    t.val (lt0 t) (iblk0 V c 2 t) (iblk0 V c 0 t) (iblk0 V c 1 t) (iblk0 V c 3 t) (iblk0 V c 5 t) (iblk0 V c 4 t)
    (blk0_0 V c t) (blk0_1 V c t) (fun p => blk0_2 V c t p 0) (blk0_3 V c t) (blk0_5 V c t) (blk0_4 V c t) p q).trans ?_
  show _ = Sage.hidEM _ _ _ _ _ _ (((cfg0.win 7).blk t).view.emb (ix2 p q))
  rw [emb0_7]
  rfl

/-- WHAT POINT t WRITES BACK through window 8: the tile's rows of the projection. -/
theorem flushed0_8 (c : Dev nD) (t : Fin cfg0.N) :
    (dat0 V c).flushed 8 t = ((cfg0.win 8).blk t).view.read (Elt Ideal)
      (Sage.prjEM (V c main_v24) (V c main_arg0) (V c main_v12) (V c main_arg2) (V c main_arg3) (V c main_arg4)
        (V c main_arg5)) := by
  show (cfg0.win 8).cut (grid0.coords t) ((dat0 V c).after 8 t) = _
  rw [after0_8]
  unfold out0_8
  rw [View.canon_unit_zero hz2]
  simp only [View.ld_unit_zero (S := S4000x128) hz2, View.ld_unit_zero (S := S4000x1) hz2,
    View.ld_unit_zero (S := S128x128) hz2, View.ld_unit_zero (S := S128) hz1, View.ld_unit_zero (S := S128x16) hz2]
  funext j
  obtain ⟨p, q, rfl⟩ : ∃ (p : Fin 4000) (q : Fin 16), j = ix2 p q := ⟨j 0, j 1, eq_ix2 j⟩
  refine (Tile.tile_projected (V c main_v24) (V c main_arg0) (V c main_v12) (V c main_arg2) (V c main_arg3) (V c main_arg4)
    (V c main_arg5) t.val (lt0 t) (iblk0 V c 2 t) (iblk0 V c 0 t) (iblk0 V c 1 t) (iblk0 V c 3 t) (iblk0 V c 5 t)
    (iblk0 V c 4 t) (iblk0 V c 6 t)
    (blk0_0 V c t) (blk0_1 V c t) (fun p => blk0_2 V c t p 0) (blk0_3 V c t) (blk0_5 V c t) (blk0_4 V c t)
    (blk0_6 V c t) p q).trans ?_
  show _ = Sage.prjEM _ _ _ _ _ _ _ (((cfg0.win 8).blk t).view.emb (ix2 p q))
  rw [emb0_8]
  rfl

/-- THE ARRAYS after region 0: the hidden layer and its projection of the arrays found at entry. -/
theorem final0_7 (c : Dev nD) : (dat0 V c).arrAt 7 cfg0.N
    = Sage.hidEM (V c main_v24) (V c main_arg0) (V c main_v12) (V c main_arg2) (V c main_arg3) (V c main_arg4) :=
  (dat0 V c).arrAt_eq_of_cover 7 _ (fun t _ => flushed0_7 V c t) cover0_7

theorem final0_8 (c : Dev nD) : (dat0 V c).arrAt 8 cfg0.N
    = Sage.prjEM (V c main_v24) (V c main_arg0) (V c main_v12) (V c main_arg2) (V c main_arg3) (V c main_arg4)
        (V c main_arg5) :=
  (dat0 V c).arrAt_eq_of_cover 8 _ (fun t _ => flushed0_8 V c t) cover0_8

end Cert.KernelIdeal.Blocks

end
-- ==== Proof.Blocks1.lean ====
/-
  Region 1 (the logits and their log-softmax): from blocks to the whole array.

  As in region 0: 25 points, row-tiled windows holding rows 4000·t … of their arrays, whole windows for the root weights and
  the bias. What point t writes back is the tile's rows of one whole-array function of the arrays found at entry, and the
  blocks tile the result array.
-/
import proofs.«162514_j56891136803141_2_alg».proof.Proof.Gen.KernelIdeal.Frame
import proofs.«162514_j56891136803141_2_alg».proof.Proof.Tile1
import proofs.«162514_j56891136803141_2_alg».proof.Proof.Blocks0
import proofs.«162514_j56891136803141_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The printed index maps, decided over the grid: a row-tiled window's block index at point t is (t, 0), a whole
    window's is zero. -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = t.val
    ∧ win1_5.index t (1 : Fin 2) = 0 :=
  (by decide +kernel : ∀ t : Fin grid1.N, _)

theorem lt1 (t : Fin cfg1.N) : t.val < 25 := by
  have h : t.val < grid1.N := t.isLt
  rw [N_1] at h; exact h

/-- Window 0's block at point t: rows 4000·t … of its array. -/
theorem blk1_0 (c : Dev nD) (t : Fin cfg1.N) (p : Fin 4000) (q : Fin 16) :
    iblk1 V c 0 t (ix2 p q) = V c main_v37 (ix2 (Tile.node t.val (lt1 t) p) q) := by
  obtain ⟨e0, e1, e2, e3, e4, e5, e6, e7, e8, e9, e10⟩ := idx1 t
  show V c main_v37 (((cfg1.win 0).blk t).view.emb (ix2 p q)) = _
  refine congrArg (V c main_v37) (funext fun a => Fin.ext ?_)
  match a with
  | ⟨0, _⟩ => show win1_0.index t (0 : Fin 2) * 4000 + 1 * p.val = t.val * 4000 + p.val; omega
  | ⟨1, _⟩ => show win1_0.index t (1 : Fin 2) * 16 + 1 * q.val = q.val; omega

/-- Window 1's block at point t: rows 4000·t … of its array. -/
theorem blk1_1 (c : Dev nD) (t : Fin cfg1.N) (p : Fin 4000) (q : Fin 128) :
    iblk1 V c 1 t (ix2 p q) = V c main_v25_0 (ix2 (Tile.node t.val (lt1 t) p) q) := by
  obtain ⟨e0, e1, e2, e3, e4, e5, e6, e7, e8, e9, e10⟩ := idx1 t
  show V c main_v25_0 (((cfg1.win 1).blk t).view.emb (ix2 p q)) = _
  refine congrArg (V c main_v25_0) (funext fun a => Fin.ext ?_)
  match a with
  | ⟨0, _⟩ => show win1_1.index t (0 : Fin 2) * 4000 + 1 * p.val = t.val * 4000 + p.val; omega
  | ⟨1, _⟩ => show win1_1.index t (1 : Fin 2) * 128 + 1 * q.val = q.val; omega

/-- Window 2's block at point t: rows 4000·t … of its array. -/
theorem blk1_2 (c : Dev nD) (t : Fin cfg1.N) (p : Fin 4000) (q : Fin 1) :
    iblk1 V c 2 t (ix2 p q) = V c main_v12 (ix2 (Tile.node t.val (lt1 t) p) q) := by
  obtain ⟨e0, e1, e2, e3, e4, e5, e6, e7, e8, e9, e10⟩ := idx1 t
  show V c main_v12 (((cfg1.win 2).blk t).view.emb (ix2 p q)) = _
  refine congrArg (V c main_v12) (funext fun a => Fin.ext ?_)
  match a with
  | ⟨0, _⟩ => show win1_2.index t (0 : Fin 2) * 4000 + 1 * p.val = t.val * 4000 + p.val; omega
  | ⟨1, _⟩ => show win1_2.index t (1 : Fin 2) * 1 + 1 * q.val = q.val; omega

/-- Window 3's block at every point: its whole array. -/
theorem blk1_3 (c : Dev nD) (t : Fin cfg1.N) (p : Fin 128) (q : Fin 16) :
    iblk1 V c 3 t (ix2 p q) = V c main_arg7 (ix2 p q) := by
  obtain ⟨e0, e1, e2, e3, e4, e5, e6, e7, e8, e9, e10⟩ := idx1 t
  show V c main_arg7 (((cfg1.win 3).blk t).view.emb (ix2 p q)) = _
  refine congrArg (V c main_arg7) (funext fun a => Fin.ext ?_)
  match a with
  | ⟨0, _⟩ => show win1_3.index t (0 : Fin 2) * 128 + 1 * p.val = p.val; omega
  | ⟨1, _⟩ => show win1_3.index t (1 : Fin 2) * 16 + 1 * q.val = q.val; omega

/-- Window 4's block at every point: its whole array. -/
theorem blk1_4 (c : Dev nD) (t : Fin cfg1.N) (q : Fin 16) :
    iblk1 V c 4 t (ix1 q) = V c main_arg6 (ix1 q) := by
  obtain ⟨e0, e1, e2, e3, e4, e5, e6, e7, e8, e9, e10⟩ := idx1 t
  show V c main_arg6 (((cfg1.win 4).blk t).view.emb (ix1 q)) = _
  refine congrArg (V c main_arg6) (funext fun a => Fin.ext ?_)
  match a with
  | ⟨0, _⟩ => show win1_4.index t (0 : Fin 1) * 16 + 1 * q.val = q.val; omega

/-- Where output window 5's block at point t sits in its array. -/
theorem emb1_5 (t : Fin cfg1.N) (p : Fin 4000) (q : Fin 16) :
    ((cfg1.win 5).blk t).view.emb (ix2 p q) = ix2 (Tile.node t.val (lt1 t) p) q := by
  obtain ⟨e0, e1, e2, e3, e4, e5, e6, e7, e8, e9, e10⟩ := idx1 t
  refine funext fun a => Fin.ext ?_
  match a with
  | ⟨0, _⟩ => show win1_5.index t (0 : Fin 2) * 4000 + 1 * p.val = t.val * 4000 + p.val; omega
  | ⟨1, _⟩ => show win1_5.index t (1 : Fin 2) * 16 + 1 * q.val = q.val; omega

/-- An index of the array is in point t's block iff each coordinate is in the block's range on its axis. -/
theorem mem_blk1_5 (t : Fin cfg1.N) (i : S100000x16.Idx) :
    i ∈ ((cfg1.win 5).blk t).view.set ↔ ∀ a : Fin 2, win1_5.index t a * S4000x16.size a ≤ (i a).val ∧ (i a).val < win1_5.index t a * S4000x16.size a + S4000x16.size a := by
  show i ∈ ((View.whole main_v38).slice (win1_5.rect t)).set ↔ _
  rw [View.set_slice_whole, Rect.mem_set_unit]
  exact Iff.rfl

/-- The 25 blocks of 4000 rows tile the array: row r lies in the block of point r / 4000. -/
theorem cover1_5 (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : grid1.N = 25 := N_1
  have ht : (i 0).val / 4000 < grid1.N := by rw [hN]; omega
  refine ⟨⟨(i 0).val / 4000, ht⟩, flush1_5 _, ?_⟩
  rw [mem_blk1_5]
  obtain ⟨e0, e1, e2, e3, e4, e5, e6, e7, e8, e9, e10⟩ := idx1 ⟨(i 0).val / 4000, ht⟩
  intro a
  match a with
  | ⟨0, _⟩ =>
    show win1_5.index ⟨(i 0).val / 4000, ht⟩ (0 : Fin 2) * 4000 ≤ (i 0).val ∧ (i 0).val < win1_5.index ⟨(i 0).val / 4000, ht⟩ (0 : Fin 2) * 4000 + 4000
    rw [e9]
    show (i 0).val / 4000 * 4000 ≤ (i 0).val ∧ (i 0).val < (i 0).val / 4000 * 4000 + 4000
    omega
  | ⟨1, _⟩ =>
    show win1_5.index ⟨(i 0).val / 4000, ht⟩ (1 : Fin 2) * 16 ≤ (i 1).val ∧ (i 1).val < win1_5.index ⟨(i 0).val / 4000, ht⟩ (1 : Fin 2) * 16 + 16
    rw [e10]
    omega

/-- WHAT POINT t WRITES BACK through window 5: the tile's rows of the result of the arrays found at entry. -/
theorem flushed1_5 (c : Dev nD) (t : Fin cfg1.N) :
    (dat1 V c).flushed 5 t = ((cfg1.win 5).blk t).view.read (Elt Ideal)
      (Sage.outEM (V c main_v37) (V c main_v25_0) (V c main_v12) (V c main_arg7) (V c main_arg6)) := by
  show (cfg1.win 5).cut (grid1.coords t) ((dat1 V c).after 5 t) = _
  rw [after1_5]
  unfold out1_5
  rw [View.canon_unit_zero hz2]
  simp only [View.ld_unit_zero (S := S4000x128) hz2, View.ld_unit_zero (S := S4000x1) hz2,
    View.ld_unit_zero (S := S4000x16) hz2, View.ld_unit_zero (S := S16) hz1, View.ld_unit_zero (S := S128x16) hz2]
  funext j
  obtain ⟨p, q, rfl⟩ : ∃ (p : Fin 4000) (q : Fin 16), j = ix2 p q := ⟨j 0, j 1, eq_ix2 j⟩
  refine (Tile.tile_output (V c main_v37) (V c main_v25_0) (V c main_v12) (V c main_arg7) (V c main_arg6)
    t.val (lt1 t) (iblk1 V c 2 t) (iblk1 V c 0 t) (iblk1 V c 1 t) (iblk1 V c 3 t) (iblk1 V c 4 t)
    (blk1_0 V c t) (blk1_1 V c t) (fun p => blk1_2 V c t p 0) (blk1_3 V c t) (blk1_4 V c t) p q).trans ?_
  show _ = Sage.outEM _ _ _ _ _ (((cfg1.win 5).blk t).view.emb (ix2 p q))
  rw [emb1_5]
  rfl

/-- THE ARRAY after region 1: the result of the arrays found at entry. -/
theorem final1_5 (c : Dev nD) : (dat1 V c).arrAt 5 cfg1.N
    = Sage.outEM (V c main_v37) (V c main_v25_0) (V c main_v12) (V c main_arg7) (V c main_arg6) :=
  (dat1 V c).arrAt_eq_of_cover 5 _ (fun t _ => flushed1_5 V c t) cover1_5

end Cert.KernelIdeal.Blocks

end
-- ==== Proof.LibGatherScatter.lean ====
/-
  The host's gather and accumulating scatter along axis 0, read at an index.

  A flat array x : [N] or a table x : [N, C] is gathered at a column idx : [E, 1] of start indices (what x[idx] lowers to), and
  updates u : [E] or u : [E, C] are accumulated into such an operand at the rows the column names (what x.at[idx].add(u)
  lowers to). The lemmas hold for ANY dimension-number record of the right type whose lists are the ones this lowering prints;
  the hypotheses on the record's fields are closed by rfl on a printed record.
-/
import Idealize.ShloMosaic.PureOps.Ideal
import Idealize.ShloMosaic.PureOps.Contract
import Idealize.ShloMosaic.Lib.ValueIdx

noncomputable section

open scoped BigOperators

namespace Pegcn.Lib

open Idealize.ShloMosaic Idealize.ShloMosaic.ValueIdx

/-! ## Gather along axis 0 -/

/-- The gather's dimension numbers for an operand [N], start indices [E, 1] and result [E], as an explicit record. -/
private abbrev gDims1 (N E : Nat) (sb : List (Fin (Shape.rank ⟨2, ![E, 1]⟩)))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

/-- The rank-1 gather at the explicit record. -/
private theorem gather1_core {α : Type} {N E w : Nat} (hN : 0 < N) (sb : List (Fin (Shape.rank ⟨2, ![E, 1]⟩)))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (gDims1 N E sb wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gDims1 N E sb wf).start (ix1 e) idx 0 + (gDims1 N E sb wf).batchCoord (ix1 e) 0
    + (gDims1 N E sb wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E sb wf).startIndexMap from List.mem_singleton.mpr rfl)]
  have hsi : (gDims1 N E sb wf).siIdx (ix1 e) ⟨List.idxOf (0 : Fin 1) (gDims1 N E sb wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A rank-1 operand x : [N] gathered at a column idx : [E, 1] of start indices (collapsed axis 0, start index map [0], the
    index vector on axis 1, slices of one element): result element e is x at the start index idx[e, 0], read as a signed
    integer and clamped into [0, N - 1]. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at hod hcd hob hsm hiv hss
  subst hod hcd hob hsm hiv hss
  exact gather1_core hN sb wf x idx e

/-- Of a rank-2 shape's two axes, the one that is not axis 0 is axis 1. -/
private theorem kept2_0 :
    (List.finRange 2).filter (fun a : Fin 2 => decide (a ∉ ([0] ++ [] : List (Fin 2)))) = ([1] : List (Fin 2)) := by
  decide

/-- The gather's dimension numbers for an operand [N, C], start indices [E, 1] and result [E, C], as an explicit record. -/
private abbrev gDims2 (N E C : Nat) (sb : List (Fin (Shape.rank ⟨2, ![E, 1]⟩)))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

/-- The row gather at the explicit record. -/
private theorem gather2_core {α : Type} {N E C w : Nat} (hN : 0 < N) (sb : List (Fin (Shape.rank ⟨2, ![E, 1]⟩)))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (j : Fin C) :
    Host.gather (gDims2 N E C sb wf) x idx (ix2 e j)
      = x (ix2 ⟨min (idx (ix2 e 0)).toInt.toNat (N - 1), by omega⟩ j) := by
  unfold Host.gather
  congr 1
  funext a
  refine Fin.ext ?_
  show (gDims2 N E C sb wf).start (ix2 e j) idx a + (gDims2 N E C sb wf).batchCoord (ix2 e j) a
    + (gDims2 N E C sb wf).offCoord (ix2 e j) a = _
  rw [GatherDims.batchCoord_eq_zero _ _ _ List.not_mem_nil]
  have ha : a = 0 ∨ a = 1 := by
    rcases a with ⟨v, hv⟩
    have hv' : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims2 N E C sb wf).startIndexMap from List.mem_singleton.mpr rfl)]
    have hsi : (gDims2 N E C sb wf).siIdx (ix2 e j) ⟨List.idxOf (0 : Fin 2) (gDims2 N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N E C sb wf).startIndexMap := by
      intro h; exact absurd (congrArg Fin.val (List.mem_singleton.mp h)) Nat.one_ne_zero
    have hk : (gDims2 N E C sb wf).sKept = [1] := by
      exact kept2_0
    have hget : ∀ (k : Nat) (hk : k < 1), ([1] : List (Fin 2))[k] = 1 := by
      intro k hk; obtain rfl : k = 0 := by omega
      rfl
    unfold GatherDims.start GatherDims.offCoord
    rw [dif_neg h1, dif_pos (by rw [hk]; exact List.mem_singleton.mpr rfl)]
    rw [hget]
    simp only [Nat.zero_add]
    rfl

/-- A table x : [N, C] gathered by rows at a column idx : [E, 1] of start indices (offset axis 1, collapsed axis 0, start
    index map [0], the index vector on axis 1, slices of one whole row): result element (e, j) is x at row idx[e, 0], read as
    a signed integer and clamped into [0, N - 1], column j. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  obtain ⟨od, cd, ob, sb, sm, iv, ss, wf⟩ := d
  simp only at hod hcd hob hsm hiv hss
  subst hod hcd hob hsm hiv hss
  exact gather2_core hN sb wf x idx e j

/-! ## Where an update lands -/

/-- An update lands at operand index i exactly when, on every operand axis, the start read signed off the scatter indices plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hi a
      have hi' := congrFun (Option.some.inj hi) a
      have hv : (d.start j idx a + (d.window j a : Int)).toNat = (i a).val := congrArg Fin.val hi'
      have := h a
      omega
    · intro hi
      congr 1
      funext a
      refine Fin.ext ?_
      have := hi a
      have := h a
      show (d.start j idx a + (d.window j a : Int)).toNat = (i a).val
      omega
  · rename_i h
    constructor
    · intro hi
      exact absurd hi (by simp)
    · intro hi
      exfalso
      apply h
      intro a
      have := hi a
      have := (i a).isLt
      omega

/-- The scatter's dimension numbers for an operand [N], scatter indices [E, 1] and updates [E], as an explicit record. -/
private abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The rank-1 landing condition at the explicit record. -/
private theorem scatter1_core {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hs : (sDims1 N E wf).start (ix1 e) idx 0 = (idx (ix2 e 0)).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw : (sDims1 N E wf).window (ix1 e) 0 = 0 := by
    unfold ScatterDims.window
    rw [dif_neg (by simp [Shape.kept])]
  rw [resultIdx?_eq_some_iff]
  constructor
  · intro h
    have h0 : _ = ((n.val : Nat) : Int) := h 0
    rw [hs, hw] at h0
    simpa using h0
  · intro h a
    obtain rfl : a = 0 := Subsingleton.elim _ _
    show _ = ((n.val : Nat) : Int)
    rw [hs, hw, h]
    simp

/-- Updates u : [E] scattered into an operand [N] at a column idx : [E, 1] of scatter indices (no window axes, inserted axis 0,
    the index vector on axis 1): update e lands at element n exactly when its index idx[e, 0], read as a signed integer and
    NOT clamped, is n; an index outside [0, N) lands nowhere. -/
theorem scatter1_lands_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at huw hiw hsd hiv
  subst huw hiw hsd hiv
  exact scatter1_core wf idx e n

/-- The scatter's dimension numbers for an operand [N, C], scatter indices [E, 1] and updates [E, C], as an explicit record. -/
private abbrev sDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Of a rank-2 shape's two axes, the one that is not the inserted axis 0 is axis 1. -/
private theorem kept2_0' :
    (List.finRange 2).filter (fun a : Fin 2 => decide (a ∉ ([0] : List (Fin 2)))) = ([1] : List (Fin 2)) := by
  decide

/-- The row landing condition at the explicit record. -/
private theorem scatter2_core {N E C w : Nat} (wf : ScatterDims.WF ⟨2, ![N, C]⟩ ⟨2, ![E, 1]⟩ ⟨2, ![E, C]⟩ [1] [0] [0] 1)
    (idx : IVec ⟨2, ![E, 1]⟩ w) (e : Fin E) (j' : Fin C) (n : Fin N) (j : Fin C) :
    (sDims2 N E C wf).resultIdx? (ix2 e j') idx = some (ix2 n j)
      ↔ (idx (ix2 e 0)).toInt = (n.val : Int) ∧ j' = j := by
  have hs0 : (sDims2 N E C wf).start (ix2 e j') idx 0 = (idx (ix2 e 0)).toInt := by
    unfold ScatterDims.start
    rw [dif_pos (show (0 : Fin 2) ∈ (sDims2 N E C wf).scatterDimsToOperandDims from List.mem_singleton.mpr rfl)]
    have hsi : (sDims2 N E C wf).siIdx (ix2 e j') ⟨List.idxOf (0 : Fin 2) (sDims2 N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (sDims2 N E C wf).window (ix2 e j') 0 = 0 := by
    unfold ScatterDims.window
    rw [dif_neg (by simp [Shape.kept])]
  have hs1 : (sDims2 N E C wf).start (ix2 e j') idx 1 = 0 := by
    unfold ScatterDims.start
    rw [dif_neg (fun h => absurd (congrArg Fin.val (List.mem_singleton.mp h)) Nat.one_ne_zero)]
  have hw1 : (sDims2 N E C wf).window (ix2 e j') 1 = j'.val := by
    have hk : (sDims2 N E C wf).sKept = [1] := kept2_0'
    have hget : ∀ (k : Nat) (hk : k < 1), ([1] : List (Fin 2))[k] = 1 := by
      intro k hk; obtain rfl : k = 0 := by omega
      rfl
    unfold ScatterDims.window
    rw [dif_pos (by rw [hk]; exact List.mem_singleton.mpr rfl), hget]
  rw [resultIdx?_eq_some_iff]
  constructor
  · intro h
    have h0 : _ = ((n.val : Nat) : Int) := h 0
    have h1 : _ = ((j.val : Nat) : Int) := h 1
    rw [hs0, hw0] at h0
    rw [hs1, hw1] at h1
    exact ⟨by simpa using h0, Fin.ext (by omega)⟩
  · rintro ⟨h, rfl⟩ a
    have ha : a = 0 ∨ a = 1 := by
      rcases a with ⟨v, hv⟩
      have hv' : v < 2 := hv
      rcases (by omega : v = 0 ∨ v = 1) with rfl | rfl
      · exact Or.inl rfl
      · exact Or.inr rfl
    rcases ha with rfl | rfl
    · show _ = ((n.val : Nat) : Int)
      rw [hs0, hw0, h]
      simp
    · show _ = ((j'.val : Nat) : Int)
      rw [hs1, hw1]
      simp

/-- Update rows u : [E, C] scattered into a table [N, C] at a column idx : [E, 1] of scatter indices (window axis 1, inserted
    axis 0, the index vector on axis 1): update element (e, j') lands at element (n, j) exactly when its row index idx[e, 0],
    read as a signed integer and NOT clamped, is n and the columns agree; an index outside [0, N) lands nowhere. -/
theorem scatter2_lands_iff {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (idx : IVec ⟨2, ![E, 1]⟩ w) (e : Fin E) (j' : Fin C) (n : Fin N) (j : Fin C) :
    d.resultIdx? (ix2 e j') idx = some (ix2 n j) ↔ (idx (ix2 e 0)).toInt = (n.val : Int) ∧ j' = j := by
  obtain ⟨uw, iw, sd, iv, wf⟩ := d
  simp only at huw hiw hsd hiv
  subst huw hiw hsd hiv
  exact scatter2_core wf idx e j' n j

/-! ## The accumulating scatter at an index -/

/-- The accumulating scatter of updates u : [E] into x : [N] at a column idx : [E, 1] of indices, read at element n at the ideal
    instance: x at n plus the sum of the updates whose index idx[e, 0], read as a signed integer, is n. The sum runs over
    the updates' own index type. -/
theorem scatterAdd1_apply {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ j ∈ Finset.univ.filter
          (fun j : (⟨1, ![E]⟩ : Shape).Idx => (idx (ix2 (j 0) 0)).toInt = (n.val : Int)), upd j := by
  show Ideal.hostScatterAdd d x idx upd (ix1 n) = _
  unfold Ideal.hostScatterAdd
  congr 1
  refine Finset.sum_congr (Finset.filter_congr fun j _ => ?_) fun _ _ => rfl
  obtain ⟨e, rfl⟩ : ∃ e, j = ix1 e := ⟨j 0, eq_ix1 j⟩
  exact scatter1_lands_iff d huw hiw hsd hiv idx e n

/-- The accumulating scatter of update rows u : [E, C] into a table x : [N, C] at a column idx : [E, 1] of row indices, read at
    element (n, c) at the ideal instance: x at (n, c) plus the sum of the update elements in column c whose row index
    idx[e, 0], read as a signed integer, is n. The sum runs over the updates' own index type (the column condition is
    written on the coordinates' values). -/
theorem scatterAdd2_apply {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ j ∈ Finset.univ.filter
          (fun j : (⟨2, ![E, C]⟩ : Shape).Idx =>
            (idx (ix2 (j 0) 0)).toInt = (n.val : Int) ∧ (j 1).val = c.val), upd j := by
  show Ideal.hostScatterAdd d x idx upd (ix2 n c) = _
  unfold Ideal.hostScatterAdd
  congr 1
  refine Finset.sum_congr (Finset.filter_congr fun j _ => ?_) fun _ _ => rfl
  obtain ⟨e, j', rfl⟩ : ∃ e j', j = ix2 e j' := ⟨j 0, j 1, eq_ix2 j⟩
  rw [scatter2_lands_iff d huw hiw hsd hiv idx e j' n c]
  show _ ∧ j' = c ↔ _ ∧ j'.val = c.val
  rw [Fin.ext_iff]
  exact Iff.rfl

/-! ## The wrap of a negative index before a gather

Before it gathers, x[idx] adds the operand's length to every negative index: select(idx < 0, idx + N, idx). On an index that is
not negative the wrap is the identity, and on one below the length the gather's clamp is the identity too. -/

/-- A word that is not negative as a signed integer is not signed-less-than the zero word. -/
theorem cmpi_slt_zero_of_nonneg {w : Nat} (x : BitVec w) (h : 0 ≤ x.toInt) : IntOp.cmpi .slt x 0#w = 0#1 := by
  have hslt : x.slt 0#w = false := by
    simp only [BitVec.slt, BitVec.toInt_zero, decide_eq_false_iff_not, not_lt]
    exact h
  simp only [IntOp.cmpi, hslt]
  rfl

/-- The wrap on one word: a word that is not negative is kept, whatever is added on the other branch. -/
theorem wrap_of_nonneg {w : Nat} (x c : BitVec w) (h : 0 ≤ x.toInt) :
    Scalar.select (IntOp.cmpi .slt x 0#w) (IntOp.addi x c) x = x := by
  rw [cmpi_slt_zero_of_nonneg x h]
  exact select_zero _ _

/-- The wrap on a vector of indices read at an index e: where the compared vector z reads zero and v is not negative, the
    wrapped vector reads v. -/
theorem wrap_apply {s : Shape} {w : Nat} (v z c : IVec s w) (e : s.Idx) (hz : z e = 0#w) (h : 0 ≤ (v e).toInt) :
    select (cmpi .slt v z) (addi v c) v e = v e := by
  show Scalar.select (IntOp.cmpi .slt (v e) (z e)) (IntOp.addi (v e) (c e)) (v e) = v e
  rw [hz]
  exact wrap_of_nonneg _ _ h

/-- The wrap as it is printed, the zero and the length being broadcast constants: at an index where v is not negative the
    wrapped vector reads v. -/
theorem wrap_bcast_apply {s0 s : Shape} {w : Nat} (dims : Fin s0.rank → Fin s.rank)
    (h0 h1 : s0.BroadcastsInDim s dims) (v : IVec s w) (c : BitVec w) (e : s.Idx) (h : 0 ≤ (v e).toInt) :
    select (cmpi .slt v (broadcastInDim s dims h0 (constantI s0 w 0#w)))
      (addi v (broadcastInDim s dims h1 (constantI s0 w c))) v e = v e :=
  wrap_apply v _ _ e rfl h

/-- The gather's clamp is the identity on a start index inside the operand. -/
theorem clamp_of_lt {w : Nat} (x : BitVec w) (N : Nat) (h0 : 0 ≤ x.toInt) (hN : x.toInt < (N : Int)) :
    min x.toInt.toNat (N - 1) = x.toInt.toNat := by
  omega

/-- The wrap then the clamp on one word inside the operand: both are the identity. -/
theorem clamp_wrap_of_lt {w : Nat} (x c : BitVec w) (N : Nat) (h0 : 0 ≤ x.toInt) (hN : x.toInt < (N : Int)) :
    min (Scalar.select (IntOp.cmpi .slt x 0#w) (IntOp.addi x c) x).toInt.toNat (N - 1) = x.toInt.toNat := by
  rw [wrap_of_nonneg x c h0]
  exact clamp_of_lt x N h0 hN

/-- The clamped start index as a coordinate: when the index word reads as the coordinate n, the clamped coordinate is n. -/
theorem clamp_fin_eq {N : Nat} (z : Int) (n : Fin N) (h : z = (n.val : Int)) (hlt : min z.toNat (N - 1) < N) :
    (⟨min z.toNat (N - 1), hlt⟩ : Fin N) = n := by
  refine Fin.ext ?_
  show min z.toNat (N - 1) = n.val
  have := n.isLt
  omega

end Pegcn.Lib

end
-- ==== Proof.LibFilteredRows.lean ====
/-
  A sum over the entries of an array, filtered by a condition on the row alone (and, for a matrix, a fixed column),
  as a sum over the rows that satisfy the condition.

  An accumulating scatter along axis 0 reads, at an entry (v, c), the operand plus the sum of the update entries
  (e, c') whose row index names v and whose column c' is c. Over the index type of an [E, C] array that is a filtered sum
  over pairs of coordinates; it is the sum, over the rows e that name v, of the update's entry (e, c). For a flat [E] array
  the filtered sum over its one-coordinate indices is the sum over the coordinates.
-/
import Idealize.ShloMosaic.Lib.ValueIdx

open scoped BigOperators

namespace FilteredRows

open Idealize.ShloMosaic Idealize.ShloMosaic.ValueIdx

/-- Entries of an [E, C] array whose row satisfies P and whose column is c, summed: the sum over the rows satisfying P
    of the entry in column c. -/
theorem sum_rows2 {E C : ℕ} {M : Type} [AddCommMonoid M] (P : Fin E → Prop) [DecidablePred P] (c : Fin C)
    [DecidablePred fun j : (⟨2, ![E, C]⟩ : Shape).Idx => P (j 0) ∧ (j 1).val = c.val]
    (f : (⟨2, ![E, C]⟩ : Shape).Idx → M) :
    (∑ j ∈ (Finset.univ : Finset (⟨2, ![E, C]⟩ : Shape).Idx).filter (fun j => P (j 0) ∧ (j 1).val = c.val), f j)
      = ∑ e ∈ (Finset.univ : Finset (Fin E)).filter P, f (ix2 e c) := by
  have back : ∀ j : (⟨2, ![E, C]⟩ : Shape).Idx, (j 1).val = c.val → ix2 (j 0) c = j := by
    intro j h
    have h1 : (j 1 : Fin C) = c := Fin.ext h
    rw [← h1]
    exact (eq_ix2 j).symm
  refine Finset.sum_bij' (fun j _ => (j 0 : Fin E)) (fun e _ => ix2 e c) ?_ ?_ ?_ ?_ ?_
  · intro j hj
    simp only [Finset.mem_filter, Finset.mem_univ, true_and] at hj
    exact Finset.mem_filter.mpr ⟨Finset.mem_univ _, hj.1⟩
  · intro e he
    simp only [Finset.mem_filter, Finset.mem_univ, true_and] at he ⊢
    exact ⟨he, rfl⟩
  · intro j hj
    simp only [Finset.mem_filter, Finset.mem_univ, true_and] at hj
    exact back j hj.2
  · intro e _
    rfl
  · intro j hj
    simp only [Finset.mem_filter, Finset.mem_univ, true_and] at hj
    exact congrArg f (back j hj.2).symm

/-- Entries of a flat [E] array whose coordinate satisfies P, summed: the sum over the coordinates satisfying P. -/
theorem sum_rows1 {E : ℕ} {M : Type} [AddCommMonoid M] (P : Fin E → Prop) [DecidablePred P]
    [DecidablePred fun j : (⟨1, ![E]⟩ : Shape).Idx => P (j 0)]
    (f : (⟨1, ![E]⟩ : Shape).Idx → M) :
    (∑ j ∈ (Finset.univ : Finset (⟨1, ![E]⟩ : Shape).Idx).filter (fun j => P (j 0)), f j)
      = ∑ e ∈ (Finset.univ : Finset (Fin E)).filter P, f (ix1 e) := by
  refine Finset.sum_bij' (fun j _ => (j 0 : Fin E)) (fun e _ => ix1 e) ?_ ?_ ?_ ?_ ?_
  · intro j hj
    simp only [Finset.mem_filter, Finset.mem_univ, true_and] at hj
    exact Finset.mem_filter.mpr ⟨Finset.mem_univ _, hj⟩
  · intro e he
    simp only [Finset.mem_filter, Finset.mem_univ, true_and] at he ⊢
    exact he
  · intro j _
    exact (eq_ix1 j).symm
  · intro e _
    rfl
  · intro j _
    exact congrArg f (eq_ix1 j)

end FilteredRows
-- ==== Proof.SegSum.lean ====
/-
  The host's accumulating scatters, read as the specification's segment sum and clamped degree.

  An accumulating scatter of update rows into a zero table at a column of destination words reads, at entry (v, k),
  zero plus the sum over the edges into v of the update's entry (e, k); when the updates are the gathered rows of a
  table X that is the segment sum agg X (v, k). Scattering ones into a zero vector counts the edges into v; its maximum
  with one is the clamped degree.
-/
import proofs.«162514_j56891136803141_2_alg».proof.Proof.Spec
import proofs.«162514_j56891136803141_2_alg».proof.Proof.LibGatherScatter
import proofs.«162514_j56891136803141_2_alg».proof.Proof.LibFilteredRows
import Idealize.ShloMosaic.Lib.Pipeline.Value

noncomputable section

open scoped BigOperators

namespace Sage

open Idealize.ShloMosaic Idealize.ShloMosaic.ValueIdx
open MeanLayer (Mat Row)

/-- A scalar constant broadcast to any shape reads the constant everywhere. -/
theorem bcast_scalar {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply _ h (constant (F := Ideal) ⟨0, ![]⟩ .f32 w) i (fun a => a.elim0) (fun a => a.elim0)).trans rfl

variable {n E : ℕ}

/-- A gather of rows at a column of source words reads, at (e, j), the table at the row src(e). -/
theorem gather_src {C : ℕ} {φ : FTy} (hn : 0 < n) (d : GatherDims ⟨2, ![n, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (X : FVec Ideal ⟨2, ![n, C]⟩ φ) (s : IVec ⟨2, ![E, 1]⟩ 32) (e : Fin E) (j : Fin C) :
    Host.gather d X s (ix2 e j) = X (ix2 (src hn s e) j) :=
  Pegcn.Lib.gather2_apply hn d hod hcd hob hsm hiv hss X s e j

/-- Update rows that are the gathered rows of X, accumulated into a zero table: the segment sum of X. -/
theorem seg_sum2 {C : ℕ} (hn : 0 < n) (sd : ScatterDims ⟨2, ![n, C]⟩ ⟨2, ![E, 1]⟩ ⟨2, ![E, C]⟩)
    (h1 : sd.updateWindowDims = [1]) (h2 : sd.insertedWindowDims = [0]) (h3 : sd.scatterDimsToOperandDims = [0])
    (h4 : sd.indexVectorDim = 1)
    (z : FVec Ideal ⟨2, ![n, C]⟩ .f32) (hz : ∀ i, z i = Ideal.ofBits .f32 0x00000000#32)
    (s t : IVec ⟨2, ![E, 1]⟩ 32) (X : Mat n C) (upd : FVec Ideal ⟨2, ![E, C]⟩ .f32)
    (hupd : ∀ (e : Fin E) (j : Fin C), upd (ix2 e j) = X (ix2 (src hn s e) j)) (v : Fin n) (k : Fin C) :
    Host.scatterAdd sd z t upd (ix2 v k) = agg hn s t X v k := by
  refine (Pegcn.Lib.scatterAdd2_apply sd h1 h2 h3 h4 z t upd v k).trans ?_
  rw [hz]
  unfold agg into
  refine congrArg (Ideal.ofBits .f32 0x00000000#32 + ·) ?_
  refine (FilteredRows.sum_rows2 (fun e : Fin E => (t (ix2 e 0)).toInt = (v.val : Int)) k upd).trans ?_
  exact Finset.sum_congr rfl fun e _ => hupd e k

/-- Ones accumulated into a zero vector, against one: the clamped degree. -/
theorem seg_deg (sd : ScatterDims ⟨1, ![n]⟩ ⟨2, ![E, 1]⟩ ⟨1, ![E]⟩)
    (h1 : sd.updateWindowDims = []) (h2 : sd.insertedWindowDims = [0]) (h3 : sd.scatterDimsToOperandDims = [0])
    (h4 : sd.indexVectorDim = 1)
    (z : FVec Ideal ⟨1, ![n]⟩ .f32) (hz : ∀ i, z i = Ideal.ofBits .f32 0x00000000#32)
    (t : IVec ⟨2, ![E, 1]⟩ 32) (upd : FVec Ideal ⟨1, ![E]⟩ .f32)
    (hupd : ∀ j, upd j = Ideal.ofBits .f32 0x3F800000#32) (v : Fin n) :
    max (Host.scatterAdd sd z t upd (ix1 v)) (Ideal.ofBits .f32 0x3F800000#32) = deg t v := by
  rw [Pegcn.Lib.scatterAdd1_apply sd h1 h2 h3 h4 z t upd v, hz]
  unfold deg into
  refine congrArg (fun a => max (Ideal.ofBits .f32 0x00000000#32 + a) (Ideal.ofBits .f32 0x3F800000#32)) ?_
  refine (FilteredRows.sum_rows1 (fun e : Fin E => (t (ix2 e 0)).toInt = (v.val : Int)) upd).trans ?_
  exact Finset.sum_congr rfl fun e _ => hupd _

end Sage

end
-- ==== Proof.HostK.lean ====
/-
  The idealized kernel's result as one function of its arguments.

  @main is: a first stretch of host operations (the source and destination index columns out of the edge list; the
  clamped in-degrees by an accumulating scatter of ones, their reciprocals as a column; the feature rows gathered at the
  sources and accumulated at the destinations); region 0 (the hidden layer and its projection, tile by tile); a second
  stretch (the projections gathered and accumulated in the same way, at the same two columns); region 1 (the logits and
  their log-softmax). The buffers' contents at the four boundaries are a fold from the launch memory. Read back through
  the fold, the result buffer holds the specification's first arrangement of the argument arrays, the two index columns
  being what the first stretch leaves in its column buffers.
-/
import proofs.«162514_j56891136803141_2_alg».proof.Proof.Gen.KernelIdeal.Frame
import proofs.«162514_j56891136803141_2_alg».proof.Proof.Blocks1
import proofs.«162514_j56891136803141_2_alg».proof.Proof.SegSum
import proofs.«162514_j56891136803141_2_alg».proof.Proof.LibRowOps
import Idealize.ShloMosaic.Lib.StableHlo.Run
import Idealize.ShloMosaic.Lib.Pipeline.Value
import Idealize.ShloMosaic.Lib.ValueIdx

set_option maxRecDepth 16384
set_option maxHeartbeats 2000000

noncomputable section

namespace Cert.KernelIdeal.HostSide

open Cert.KernelIdeal Cert.KernelIdeal.Gen Idealize.ShloMosaic Idealize.ShloMosaic.TcCoe Idealize.ShloMosaic.ValueIdx
open Idealize.SL Idealize.SL.Sem Idealize.ShloMosaic.StableHlo
open Idealize.ShloMosaic.Pipeline (Dat)
open MeanLayer (Mat Row)

theorem h100000 : 0 < 100000 := by norm_num

/-- The host's quotient of two arrays, at an index. -/
theorem hdivf_apply {s : Shape} (a b : FVec Ideal s .f32) (i : s.Idx) : Host.divf a b i = Ideal.div (a i) (b i) := rfl

variable (m : (ℓ : Loc nD τ sig) → Buf (Elt Ideal) ℓ) (ρ : Dev nD → PrngReg)

/-! ## After the first stretch -/

/-- The segment sums of the gathered feature rows, at the stretch's own source and destination columns. -/
theorem V1_agg_apply (c : Dev nD) (v : Fin 100000) (k : Fin 128) :
    V1 m ρ c main_v24 (ix2 v k)
      = Sage.agg h100000 (V1 m ρ c main_v19) (V1 m ρ c main_v23) (m ((c : Thread nD τ).loc main_arg0)) v k := by
  show StableHlo.after hostOps0 (W0 m ρ c) (Proc.devRef .tc main_v24) (ix2 v k)
    = Sage.agg h100000 (StableHlo.after hostOps0 (W0 m ρ c) (Proc.devRef .tc main_v19))
        (StableHlo.after hostOps0 (W0 m ρ c) (Proc.devRef .tc main_v23)) (m ((c : Thread nD τ).loc main_arg0)) v k
  after_results_simp
  exact Sage.seg_sum2 h100000 _ rfl rfl rfl rfl _ (fun i => Sage.bcast_scalar _ _ i) _ _ (m ((c : Thread nD τ).loc main_arg0)) _
    (fun e j => by rw [extf_apply, Sage.gather_src h100000 _ rfl rfl rfl rfl rfl rfl]; rfl) v k

theorem V1_agg (c : Dev nD) :
    V1 m ρ c main_v24 = Sage.aggM h100000 (V1 m ρ c main_v19) (V1 m ρ c main_v23) (m ((c : Thread nD τ).loc main_arg0)) := by
  funext i
  obtain ⟨v, k, rfl⟩ : ∃ (v : Fin 100000) (k : Fin 128), i = ix2 v k := ⟨i 0, i 1, eq_ix2 i⟩
  exact V1_agg_apply m ρ c v k

/-- The reciprocals of the clamped in-degrees, as a column. -/
theorem V1_inv_apply (c : Dev nD) (v : Fin 100000) (u : Fin 1) :
    V1 m ρ c main_v12 (ix2 v u)
      = Ideal.div (Ideal.ofBits .f32 0x3F800000#32) (Sage.deg (V1 m ρ c main_v23) v) := by
  have e : V1 m ρ c main_v12
      = shapeCast S100000x1 (W1 m ρ c (Proc.devRef .tc main_v11)) shapeCasts_S100000_S100000x1 := by
    show StableHlo.after hostOps0 (W0 m ρ c) (Proc.devRef .tc main_v12)
      = shapeCast S100000x1 (StableHlo.after hostOps0 (W0 m ρ c) (Proc.devRef .tc main_v11)) shapeCasts_S100000_S100000x1
    after_results_simp
    rfl
  rw [e, Gcn.Lib.shapeCast_a_a1_apply]
  show StableHlo.after hostOps0 (W0 m ρ c) (Proc.devRef .tc main_v11) (ix1 v)
    = Ideal.div (Ideal.ofBits .f32 0x3F800000#32)
        (Sage.deg (StableHlo.after hostOps0 (W0 m ρ c) (Proc.devRef .tc main_v23)) v)
  after_results_simp
  rw [hdivf_apply, maximumf_apply, Sage.bcast_scalar, Sage.seg_deg _ rfl rfl rfl rfl _ (fun i => Sage.bcast_scalar _ _ i) _ _
    (fun j => Sage.bcast_scalar _ _ j) v]

theorem V1_inv (c : Dev nD) : V1 m ρ c main_v12 = Sage.invM (n := 100000) (V1 m ρ c main_v23) := by
  funext i
  obtain ⟨v, u, rfl⟩ : ∃ (v : Fin 100000) (u : Fin 1), i = ix2 v u := ⟨i 0, i 1, eq_ix2 i⟩
  exact V1_inv_apply m ρ c v u

/-- An argument buffer after the first stretch is as launched. -/
theorem V1_arg0 (c : Dev nD) : V1 m ρ c main_arg0 = (m ((c : Thread nD τ).loc main_arg0)) := by
  show StableHlo.after hostOps0 (W0 m ρ c) (Proc.devRef .tc main_arg0) = _
  after_results
theorem V1_arg2 (c : Dev nD) : V1 m ρ c main_arg2 = (m ((c : Thread nD τ).loc main_arg2)) := by
  show StableHlo.after hostOps0 (W0 m ρ c) (Proc.devRef .tc main_arg2) = _
  after_results
theorem V1_arg3 (c : Dev nD) : V1 m ρ c main_arg3 = (m ((c : Thread nD τ).loc main_arg3)) := by
  show StableHlo.after hostOps0 (W0 m ρ c) (Proc.devRef .tc main_arg3) = _
  after_results
theorem V1_arg4 (c : Dev nD) : V1 m ρ c main_arg4 = (m ((c : Thread nD τ).loc main_arg4)) := by
  show StableHlo.after hostOps0 (W0 m ρ c) (Proc.devRef .tc main_arg4) = _
  after_results
theorem V1_arg5 (c : Dev nD) : V1 m ρ c main_arg5 = (m ((c : Thread nD τ).loc main_arg5)) := by
  show StableHlo.after hostOps0 (W0 m ρ c) (Proc.devRef .tc main_arg5) = _
  after_results
theorem V1_arg6 (c : Dev nD) : V1 m ρ c main_arg6 = (m ((c : Thread nD τ).loc main_arg6)) := by
  show StableHlo.after hostOps0 (W0 m ρ c) (Proc.devRef .tc main_arg6) = _
  after_results
theorem V1_arg7 (c : Dev nD) : V1 m ρ c main_arg7 = (m ((c : Thread nD τ).loc main_arg7)) := by
  show StableHlo.after hostOps0 (W0 m ρ c) (Proc.devRef .tc main_arg7) = _
  after_results

/-! ## After region 0 -/

/-- The hidden layer and its projection. -/
theorem W2_hid (c : Dev nD) : W2 m ρ c (Proc.devRef .tc main_v25_0)
    = Sage.hidEM (Sage.aggM h100000 (V1 m ρ c main_v19) (V1 m ρ c main_v23) (m ((c : Thread nD τ).loc main_arg0))) (m ((c : Thread nD τ).loc main_arg0))
        (Sage.invM (n := 100000) (V1 m ρ c main_v23)) (m ((c : Thread nD τ).loc main_arg2)) (m ((c : Thread nD τ).loc main_arg3)) (m ((c : Thread nD τ).loc main_arg4)) := by
  refine (W2_arr m ρ c 7).trans ((Blocks.final0_7 (V1 m ρ) c).trans ?_)
  rw [V1_agg, V1_inv, V1_arg0, V1_arg2, V1_arg3, V1_arg4]

theorem W2_prj (c : Dev nD) : W2 m ρ c (Proc.devRef .tc main_v25_1)
    = Sage.prjEM (Sage.aggM h100000 (V1 m ρ c main_v19) (V1 m ρ c main_v23) (m ((c : Thread nD τ).loc main_arg0))) (m ((c : Thread nD τ).loc main_arg0))
        (Sage.invM (n := 100000) (V1 m ρ c main_v23)) (m ((c : Thread nD τ).loc main_arg2)) (m ((c : Thread nD τ).loc main_arg3)) (m ((c : Thread nD τ).loc main_arg4)) (m ((c : Thread nD τ).loc main_arg5)) := by
  refine (W2_arr m ρ c 8).trans ((Blocks.final0_8 (V1 m ρ) c).trans ?_)
  rw [V1_agg, V1_inv, V1_arg0, V1_arg2, V1_arg3, V1_arg4, V1_arg5]

/-- Region 0 leaves the reciprocal column (an input of its own) and the other arguments in place. -/
theorem W2_inv (c : Dev nD) : W2 m ρ c (Proc.devRef .tc main_v12) = Sage.invM (n := 100000) (V1 m ρ c main_v23) :=
  ((W2_arr m ρ c 2).trans (((dat0 (V1 m ρ) c).arrAt_in 2 rfl _).trans (A_eq0 (V1 m ρ) c 2))).trans (V1_inv m ρ c)
theorem W2_arg6 (c : Dev nD) : W2 m ρ c (Proc.devRef .tc main_arg6) = (m ((c : Thread nD τ).loc main_arg6)) :=
  (W2_of_ne m ρ c main_arg6 (by decide)).trans (V1_arg6 m ρ c)
theorem W2_arg7 (c : Dev nD) : W2 m ρ c (Proc.devRef .tc main_arg7) = (m ((c : Thread nD τ).loc main_arg7)) :=
  (W2_of_ne m ρ c main_arg7 (by decide)).trans (V1_arg7 m ρ c)

/-! ## After the second stretch -/

/-- The second stretch's source column is the first stretch's: the same operations on the same flat words, which
    region 0 does not touch. -/
theorem col_src (c : Dev nD) : V3 m ρ c main_v32 = V1 m ρ c main_v19 := by
  have h1 : W2 m ρ c (Proc.devRef .tc main_v1) = StableHlo.after hostOps0 (W0 m ρ c) (Proc.devRef .tc main_v1) :=
    W2_of_ne m ρ c main_v1 (by decide)
  show StableHlo.after hostOps1 (W2 m ρ c) (Proc.devRef .tc main_v32)
    = StableHlo.after hostOps0 (W0 m ρ c) (Proc.devRef .tc main_v19)
  after_results_simp
  rw [h1]
  after_results_simp

theorem col_dst (c : Dev nD) : V3 m ρ c main_v36 = V1 m ρ c main_v23 := by
  have h3 : W2 m ρ c (Proc.devRef .tc main_v3) = StableHlo.after hostOps0 (W0 m ρ c) (Proc.devRef .tc main_v3) :=
    W2_of_ne m ρ c main_v3 (by decide)
  show StableHlo.after hostOps1 (W2 m ρ c) (Proc.devRef .tc main_v36)
    = StableHlo.after hostOps0 (W0 m ρ c) (Proc.devRef .tc main_v23)
  after_results_simp
  rw [h3]
  after_results_simp

/-- The segment sums of the gathered projections, at the second stretch's own columns. -/
theorem V3_agg_apply (c : Dev nD) (v : Fin 100000) (k : Fin 16) :
    V3 m ρ c main_v37 (ix2 v k)
      = Sage.agg h100000 (V3 m ρ c main_v32) (V3 m ρ c main_v36) (W2 m ρ c (Proc.devRef .tc main_v25_1)) v k := by
  show StableHlo.after hostOps1 (W2 m ρ c) (Proc.devRef .tc main_v37) (ix2 v k)
    = Sage.agg h100000 (StableHlo.after hostOps1 (W2 m ρ c) (Proc.devRef .tc main_v32))
        (StableHlo.after hostOps1 (W2 m ρ c) (Proc.devRef .tc main_v36)) (W2 m ρ c (Proc.devRef .tc main_v25_1)) v k
  after_results_simp
  exact Sage.seg_sum2 h100000 _ rfl rfl rfl rfl _ (fun i => Sage.bcast_scalar _ _ i) _ _
    (W2 m ρ c (Proc.devRef .tc main_v25_1)) _
    (fun e j => by rw [extf_apply, Sage.gather_src h100000 _ rfl rfl rfl rfl rfl rfl]; rfl) v k

theorem V3_agg (c : Dev nD) :
    V3 m ρ c main_v37 = Sage.aggM h100000 (V1 m ρ c main_v19) (V1 m ρ c main_v23) (W2 m ρ c (Proc.devRef .tc main_v25_1)) := by
  funext i
  obtain ⟨v, k, rfl⟩ : ∃ (v : Fin 100000) (k : Fin 16), i = ix2 v k := ⟨i 0, i 1, eq_ix2 i⟩
  rw [V3_agg_apply, col_src, col_dst]
  rfl

/-- The second stretch writes none of these. -/
theorem V3_hid (c : Dev nD) : V3 m ρ c main_v25_0 = W2 m ρ c (Proc.devRef .tc main_v25_0) := by
  show StableHlo.after hostOps1 (W2 m ρ c) (Proc.devRef .tc main_v25_0) = _
  after_results
theorem V3_inv (c : Dev nD) : V3 m ρ c main_v12 = W2 m ρ c (Proc.devRef .tc main_v12) := by
  show StableHlo.after hostOps1 (W2 m ρ c) (Proc.devRef .tc main_v12) = _
  after_results
theorem V3_arg6 (c : Dev nD) : V3 m ρ c main_arg6 = W2 m ρ c (Proc.devRef .tc main_arg6) := by
  show StableHlo.after hostOps1 (W2 m ρ c) (Proc.devRef .tc main_arg6) = _
  after_results
theorem V3_arg7 (c : Dev nD) : V3 m ρ c main_arg7 = W2 m ρ c (Proc.devRef .tc main_arg7) := by
  show StableHlo.after hostOps1 (W2 m ρ c) (Proc.devRef .tc main_arg7) = _
  after_results

/-! ## After region 1: the result -/

/-- THE RESULT BUFFER at the last boundary: the first arrangement of the argument arrays, at the first stretch's
    columns. -/
theorem result (c : Dev nD) : W4 m ρ c (Proc.devRef .tc main_v38)
    = fun i => Sage.outK h100000 (V1 m ρ c main_v19) (V1 m ρ c main_v23) (m ((c : Thread nD τ).loc main_arg0)) (m ((c : Thread nD τ).loc main_arg2)) (m ((c : Thread nD τ).loc main_arg4)) (m ((c : Thread nD τ).loc main_arg3))
        (m ((c : Thread nD τ).loc main_arg5)) (m ((c : Thread nD τ).loc main_arg7)) (m ((c : Thread nD τ).loc main_arg6)) (i 0) (i 1) := by
  refine (W4_arr m ρ c 5).trans ((Blocks.final1_5 (V3 m ρ) c).trans ?_)
  rw [V3_agg, V3_hid, V3_inv, V3_arg6, V3_arg7, W2_prj, W2_hid, W2_inv, W2_arg6, W2_arg7]
  rfl

/-! ## The columns, spelt out of the edge list -/

/-- Row r of the edge list as a flat vector of words. -/
def dstRow (ei : (⟨S2x600000, .i32⟩ : BufTy).Contents (Elt Ideal)) : (⟨S600000, .i32⟩ : BufTy).Contents (Elt Ideal) :=
  shapeCast S600000 (extractStridedSlice S1x600000 ![1, 0] ei slices_S2x600000_S1x600000_1_0) shapeCasts_S1x600000_S600000
def srcRow (ei : (⟨S2x600000, .i32⟩ : BufTy).Contents (Elt Ideal)) : (⟨S600000, .i32⟩ : BufTy).Contents (Elt Ideal) :=
  shapeCast S600000 (extractStridedSlice S1x600000 ![0, 0] ei slices_S2x600000_S1x600000_0_0) shapeCasts_S1x600000_S600000

/-- The destination words as a column. -/
def dstCol (ei : (⟨S2x600000, .i32⟩ : BufTy).Contents (Elt Ideal)) : (⟨S600000x1, .i32⟩ : BufTy).Contents (Elt Ideal) :=
  broadcastInDim S600000x1 ![0] bcast_S600000_S600000x1_0 (dstRow ei)

/-- The source words as a column, a negative word first moved up by the number of nodes (what indexing a table by a
    vector of words lowers to). -/
def srcCol (ei : (⟨S2x600000, .i32⟩ : BufTy).Contents (Elt Ideal)) : (⟨S600000x1, .i32⟩ : BufTy).Contents (Elt Ideal) :=
  broadcastInDim S600000x1 ![0] bcast_S600000_S600000x1_0
    (select (cmpi .slt (srcRow ei) (broadcastInDim S600000 ![] bcast_S_S600000 (constantI S_ 32 0#32)))
      (addi (srcRow ei) (broadcastInDim S600000 ![] bcast_S_S600000 (constantI S_ 32 100000#32))) (srcRow ei))

theorem V1_src (c : Dev nD) : V1 m ρ c main_v19 = srcCol (m ((c : Thread nD τ).loc main_arg1)) := by
  show StableHlo.after hostOps0 (W0 m ρ c) (Proc.devRef .tc main_v19) = _
  after_results_simp
  rfl

theorem V1_dst (c : Dev nD) : V1 m ρ c main_v23 = dstCol (m ((c : Thread nD τ).loc main_arg1)) := by
  show StableHlo.after hostOps0 (W0 m ρ c) (Proc.devRef .tc main_v23) = _
  after_results_simp
  rfl

/-- THE RESULT BUFFER with the columns spelt out. -/
theorem result_cols (c : Dev nD) : W4 m ρ c (Proc.devRef .tc main_v38)
    = fun i => Sage.outK h100000 (srcCol (m ((c : Thread nD τ).loc main_arg1))) (dstCol (m ((c : Thread nD τ).loc main_arg1))) (m ((c : Thread nD τ).loc main_arg0)) (m ((c : Thread nD τ).loc main_arg2)) (m ((c : Thread nD τ).loc main_arg4)) (m ((c : Thread nD τ).loc main_arg3))
        (m ((c : Thread nD τ).loc main_arg5)) (m ((c : Thread nD τ).loc main_arg7)) (m ((c : Thread nD τ).loc main_arg6)) (i 0) (i 1) := by
  rw [result, V1_src, V1_dst]

end Cert.KernelIdeal.HostSide

end
-- ==== Proof.RefStages.lean ====
/-
  The idealized reference's run, evaluated stretch by stretch.

  @main is a straight line of 84 host operations, so every weakly fair execution ends with each buffer at the fold of
  the operations' results over the launch contents. The fold is evaluated in three stretches — through the hidden layer,
  through the logits, through the log-softmax —, each against the stage definitions of the read-back module with the
  values the previous stretch left standing as names, so that no step compares more than one stretch's term.
-/
import proofs.«162514_j56891136803141_2_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The fold over two stretches in a row is the fold over the second from the fold over the first. -/
theorem after_append (l1 l2 : List (HloOp τ sig (Elt Ideal))) (V : Valuation τ sig (Elt Ideal)) :
    after (l1 ++ l2) V = after l2 (after l1 V) := by
  induction l1 generalizing V with
  | nil => rfl
  | cons op l ih => exact ih _

/-- Contents moved to a typed reference's buffer type and back are unchanged. -/
theorem ofBuf_toBuf {T : BufTy} (x : TRef sig T) (v : T.Contents (Elt Ideal)) : x.ofBuf (x.toBuf v) = v := by
  obtain ⟨r, rfl, _, _⟩ := x
  rfl

variable (V : Valuation τ sig (Elt Ideal))

/-! ## First stretch: through the hidden layer -/

theorem stageA_hidden : after (opsA (F := Ideal)) V (Proc.devRef .tc main_v29)
    = val_main_v29 (F := Ideal) (V (Proc.devRef .tc main_arg0)) (V (Proc.devRef .tc main_arg1)) (V (Proc.devRef .tc main_arg2))
        (V (Proc.devRef .tc main_arg3)) (V (Proc.devRef .tc main_arg4)) := by
  after_results_simp
  rfl

theorem stageA_src : after (opsA (F := Ideal)) V (Proc.devRef .tc main_v1)
    = val_main_v1 (F := Ideal) (V (Proc.devRef .tc main_arg1)) := by
  after_results_simp
  rfl

theorem stageA_dst : after (opsA (F := Ideal)) V (Proc.devRef .tc main_v3)
    = val_main_v3 (F := Ideal) (V (Proc.devRef .tc main_arg1)) := by
  after_results_simp
  rfl

theorem stageA_arg5 : after (opsA (F := Ideal)) V (Proc.devRef .tc main_arg5) = V (Proc.devRef .tc main_arg5) := by
  after_results_simp
theorem stageA_arg6 : after (opsA (F := Ideal)) V (Proc.devRef .tc main_arg6) = V (Proc.devRef .tc main_arg6) := by
  after_results_simp
theorem stageA_arg7 : after (opsA (F := Ideal)) V (Proc.devRef .tc main_arg7) = V (Proc.devRef .tc main_arg7) := by
  after_results_simp

/-! ## Second stretch: through the logits -/

theorem stageB (W : Valuation τ sig (Elt Ideal)) (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x16, .f32⟩ : BufTy).Contents (Elt Ideal)) (x6 : (⟨S16, .f32⟩ : BufTy).Contents (Elt Ideal)) (x7 : (⟨S128x16, .f32⟩ : BufTy).Contents (Elt Ideal))
    (h29 : W (Proc.devRef .tc main_v29) = val_main_v29 (F := Ideal) x0 x1 x2 x3 x4)
    (h1 : W (Proc.devRef .tc main_v1) = val_main_v1 (F := Ideal) x1)
    (h3 : W (Proc.devRef .tc main_v3) = val_main_v3 (F := Ideal) x1)
    (h5 : W (Proc.devRef .tc main_arg5) = x5) (h6 : W (Proc.devRef .tc main_arg6) = x6)
    (h7 : W (Proc.devRef .tc main_arg7) = x7) :
    after (opsB (F := Ideal)) W (Proc.devRef .tc main_v54) = val_main_v54 (F := Ideal) x0 x1 x2 x3 x4 x5 x6 x7 := by
  after_results_simp
  rw [h29, h1, h3, h5, h6, h7]
  rfl

/-! ## Third stretch: the log-softmax -/

theorem stageC (W : Valuation τ sig (Elt Ideal)) (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x16, .f32⟩ : BufTy).Contents (Elt Ideal)) (x6 : (⟨S16, .f32⟩ : BufTy).Contents (Elt Ideal)) (x7 : (⟨S128x16, .f32⟩ : BufTy).Contents (Elt Ideal))
    (h54 : W (Proc.devRef .tc main_v54) = val_main_v54 (F := Ideal) x0 x1 x2 x3 x4 x5 x6 x7) :
    after (opsC (F := Ideal)) W (Proc.devRef .tc main_v55) = val_main_v55 (F := Ideal) x0 x1 x2 x3 x4 x5 x6 x7 := by
  after_results_simp
  rw [h54]
  simp only [ofBuf_toBuf]
  rfl

/-! ## The whole fold, and the run -/

set_option maxHeartbeats 4000000 in
/-- The result buffer after all 84 operations is the last stage of the arguments' launch contents. -/
theorem result_eq : after (ops (F := Ideal)) V (Proc.devRef .tc main_v55)
    = val_main_v55 (F := Ideal) (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) := by
  rw [ops_split, after_append, after_append]
  exact stageC (after opsB (after opsA V)) (V (Proc.devRef .tc main_arg0)) (V (Proc.devRef .tc main_arg1))
    (V (Proc.devRef .tc main_arg2)) (V (Proc.devRef .tc main_arg3)) (V (Proc.devRef .tc main_arg4))
    (V (Proc.devRef .tc main_arg5)) (V (Proc.devRef .tc main_arg6)) (V (Proc.devRef .tc main_arg7))
    (stageB (after opsA V) (V (Proc.devRef .tc main_arg0)) (V (Proc.devRef .tc main_arg1))
      (V (Proc.devRef .tc main_arg2)) (V (Proc.devRef .tc main_arg3)) (V (Proc.devRef .tc main_arg4))
      (V (Proc.devRef .tc main_arg5)) (V (Proc.devRef .tc main_arg6)) (V (Proc.devRef .tc main_arg7))
      (stageA_hidden V) (stageA_src V) (stageA_dst V) (stageA_arg5 V) (stageA_arg6 V) (stageA_arg7 V))

set_option maxHeartbeats 33600000 in
/-- Every weakly fair execution of the reference terminates with its result at the last stage of the argument arrays
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Stages

end
-- ==== Proof.RefSide.lean ====
/-
  The idealized reference's last stage as one function of its arguments: the specification's second arrangement.

  Stage by stage: the segment sums of the gathered feature rows and the clamped in-degrees (two accumulating scatters at
  the destination column); their quotient; the first layer's two matrix products, bias and rectifier, which is the
  hidden layer; the same segment sum and quotient over the hidden rows; the second layer's products and bias, which
  are the logits; and the row-wise log-softmax (a maximum reduction from -∞ taken once more against -∞, the shifted row,
  the sum of its exponentials from zero, its logarithm, the difference).
-/
import proofs.«162514_j56891136803141_2_alg».proof.Proof.RefRead
import proofs.«162514_j56891136803141_2_alg».proof.Proof.SegSum
import proofs.«162514_j56891136803141_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.ReferenceIdeal.RefSide

open Cert.ReferenceIdeal Cert.ReferenceIdeal.Gen Cert.ReferenceIdeal.ReadP
open Idealize.ShloMosaic Idealize.ShloMosaic.ValueIdx
open MeanLayer (Mat Row)

theorem h100000 : 0 < 100000 := by norm_num

/-- The source and destination index columns (the read-back module's stages for them). -/
abbrev sCol (x1 : (⟨S2x600000, .i32⟩ : BufTy).Contents (Elt Ideal)) : (⟨S600000x1, .i32⟩ : BufTy).Contents (Elt Ideal) :=
  val_main_v9 (F := Ideal) x1
abbrev tCol (x1 : (⟨S2x600000, .i32⟩ : BufTy).Contents (Elt Ideal)) : (⟨S600000x1, .i32⟩ : BufTy).Contents (Elt Ideal) :=
  val_main_v12 (F := Ideal) x1

/-! ## The layout stages' index maps at explicit coordinates -/

theorem ix_21 (v : Fin 100000) (k : Fin 128) : idx_main_v21 (ix2 v k) = ix2 v (0 : Fin 1) :=
  funext fun a => Fin.ext (by match a with | ⟨0, _⟩ => rfl | ⟨1, _⟩ => rfl)
theorem ix_20 (v : Fin 100000) (u : Fin 1) : idx_main_v20 (ix2 v u) = ix1 v :=
  funext fun a => Fin.ext (by match a with | ⟨0, _⟩ => rfl)
theorem ix_47 (v : Fin 100000) (k : Fin 128) : idx_main_v47 (ix2 v k) = ix2 v (0 : Fin 1) :=
  funext fun a => Fin.ext (by match a with | ⟨0, _⟩ => rfl | ⟨1, _⟩ => rfl)
theorem ix_46 (v : Fin 100000) (u : Fin 1) : idx_main_v46 (ix2 v u) = ix1 v :=
  funext fun a => Fin.ext (by match a with | ⟨0, _⟩ => rfl)
theorem lix_23 (v : Fin 100000) (j k : Fin 128) : lidx_main_v23 (ix2 v j) k = ix2 v k :=
  funext fun a => Fin.ext (by match a with | ⟨0, _⟩ => rfl | ⟨1, _⟩ => rfl)
theorem rix_23 (v : Fin 100000) (j k : Fin 128) : ridx_main_v23 (ix2 v j) k = ix2 k j :=
  funext fun a => Fin.ext (by match a with | ⟨0, _⟩ => rfl | ⟨1, _⟩ => rfl)
theorem lix_27 (v : Fin 100000) (j k : Fin 128) : lidx_main_v27 (ix2 v j) k = ix2 v k :=
  funext fun a => Fin.ext (by match a with | ⟨0, _⟩ => rfl | ⟨1, _⟩ => rfl)
theorem rix_27 (v : Fin 100000) (j k : Fin 128) : ridx_main_v27 (ix2 v j) k = ix2 k j :=
  funext fun a => Fin.ext (by match a with | ⟨0, _⟩ => rfl | ⟨1, _⟩ => rfl)
theorem ix_25 (v : Fin 100000) (j : Fin 128) : idx_main_v24 (idx_main_v25 (ix2 v j)) = ix1 j :=
  funext fun a => Fin.ext (by match a with | ⟨0, _⟩ => rfl)
theorem lix_49 (v : Fin 100000) (q : Fin 16) (k : Fin 128) : lidx_main_v49 (ix2 v q) k = ix2 v k :=
  funext fun a => Fin.ext (by match a with | ⟨0, _⟩ => rfl | ⟨1, _⟩ => rfl)
theorem rix_49 (v : Fin 100000) (q : Fin 16) (k : Fin 128) : ridx_main_v49 (ix2 v q) k = ix2 k q :=
  funext fun a => Fin.ext (by match a with | ⟨0, _⟩ => rfl | ⟨1, _⟩ => rfl)
theorem lix_53 (v : Fin 100000) (q : Fin 16) (k : Fin 128) : lidx_main_v53 (ix2 v q) k = ix2 v k :=
  funext fun a => Fin.ext (by match a with | ⟨0, _⟩ => rfl | ⟨1, _⟩ => rfl)
theorem rix_53 (v : Fin 100000) (q : Fin 16) (k : Fin 128) : ridx_main_v53 (ix2 v q) k = ix2 k q :=
  funext fun a => Fin.ext (by match a with | ⟨0, _⟩ => rfl | ⟨1, _⟩ => rfl)
theorem ix_51 (v : Fin 100000) (q : Fin 16) : idx_main_v50 (idx_main_v51 (ix2 v q)) = ix1 q :=
  funext fun a => Fin.ext (by match a with | ⟨0, _⟩ => rfl)
theorem ix_c4 (v : Fin 100000) (q : Fin 16) : idx_main_call1_v3 (idx_main_call1_v4 (ix2 v q)) = ix1 v :=
  funext fun a => Fin.ext (by match a with | ⟨0, _⟩ => rfl)
theorem ix_c10 (v : Fin 100000) (q : Fin 16) : idx_main_call1_v8 (idx_main_call1_v10 (ix2 v q)) = ix1 v :=
  funext fun a => Fin.ext (by match a with | ⟨0, _⟩ => rfl)
theorem ix_c7 (v : Fin 100000) (k : Fin 16) : idx_main_call1_v7 (ix1 v) k = ix2 v k :=
  funext fun a => Fin.ext (by match a with | ⟨0, _⟩ => rfl | ⟨1, _⟩ => rfl)

variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128x16, .f32⟩ : BufTy).Contents (Elt Ideal))
  (x6 : (⟨S16, .f32⟩ : BufTy).Contents (Elt Ideal)) (x7 : (⟨S128x16, .f32⟩ : BufTy).Contents (Elt Ideal))

/-! ## The first layer -/

/-- The segment sums of the gathered feature rows. -/
theorem agg1 : val_main_v13 (F := Ideal) x0 x1 = Sage.aggM h100000 (sCol x1) (tCol x1) x0 := by
  funext i
  obtain ⟨v, k, rfl⟩ : ∃ (v : Fin 100000) (k : Fin 128), i = ix2 v k := ⟨i 0, i 1, eq_ix2 i⟩
  unfold val_main_v13
  exact Sage.seg_sum2 h100000 _ rfl rfl rfl rfl _ (fun i => Sage.bcast_scalar _ _ i) _ _ x0 _
    (fun e j => Sage.gather_src h100000 _ rfl rfl rfl rfl rfl rfl x0 _ e j) v k

/-- The clamped in-degrees. -/
theorem deg1 (v : Fin 100000) : val_main_v19 (F := Ideal) x1 (ix1 v) = Sage.deg (tCol x1) v := by
  rw [val_main_v19_apply, Ideal.maximumf_def, val_main_v18_apply, val_main_cst_3_apply, Ideal.ofBits_def]
  unfold val_main_v17
  exact Sage.seg_deg _ rfl rfl rfl rfl _ (fun i => Sage.bcast_scalar _ _ i) _ _ (fun j => Sage.bcast_scalar _ _ j) v

/-- The mean of the gathered rows: the segment sum divided by the clamped degree. -/
theorem mean1 (v : Fin 100000) (k : Fin 128) : val_main_v22 (F := Ideal) x0 x1 (ix2 v k)
    = Ideal.div (Sage.agg h100000 (sCol x1) (tCol x1) x0 v k) (Sage.deg (tCol x1) v) := by
  rw [val_main_v22_apply, Ideal.hostDivf_def, agg1, val_main_v21_apply, ix_21, val_main_v20_apply, ix_20, deg1]
  rfl

/-- The hidden layer. -/
theorem hid1 : val_main_v29 (F := Ideal) x0 x1 x2 x3 x4 = Sage.hidRM h100000 (sCol x1) (tCol x1) x0 x2 x4 x3 := by
  funext i
  obtain ⟨v, j, rfl⟩ : ∃ (v : Fin 100000) (j : Fin 128), i = ix2 v j := ⟨i 0, i 1, eq_ix2 i⟩
  rw [val_main_v29_apply, val_main_v28_apply, val_main_v26_apply, val_main_v23_apply, val_main_v27_apply,
    val_main_v25_apply, val_main_v24_apply, ix_25, val_main_call0_v0_apply, val_main_call0_cst_apply,
    Ideal.maximumf_def, Ideal.addf_def, Ideal.addf_def, Ideal.ofBits_def]
  show _ = Sage.hidR h100000 (sCol x1) (tCol x1) x0 x2 x4 x3 v j
  unfold Sage.hidR
  simp only [lix_23, rix_23, lix_27, rix_27, mean1]

end Cert.ReferenceIdeal.RefSide

end
-- ==== Proof.RefSide2.lean ====
/-
  The idealized reference's last stage as one function of its arguments, continued: the second layer and the log-softmax.

  The hidden rows are gathered and accumulated at the same two index columns and divided by the same clamped degrees; the
  second layer's products and bias give the logits; the log-softmax is a maximum reduction from -∞ taken once more
  against -∞, the shifted row, the sum of its exponentials from zero, its logarithm, the difference.
-/
import proofs.«162514_j56891136803141_2_alg».proof.Proof.RefSide

set_option maxRecDepth 16384

noncomputable section

namespace Cert.ReferenceIdeal.RefSide

open Cert.ReferenceIdeal Cert.ReferenceIdeal.Gen Cert.ReferenceIdeal.ReadP
open Idealize.ShloMosaic Idealize.ShloMosaic.ValueIdx
open MeanLayer (Mat Row)

variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128x16, .f32⟩ : BufTy).Contents (Elt Ideal))
  (x6 : (⟨S16, .f32⟩ : BufTy).Contents (Elt Ideal)) (x7 : (⟨S128x16, .f32⟩ : BufTy).Contents (Elt Ideal))

/-! ## The second layer -/

/-- The segment sums of the gathered hidden rows. -/
theorem agg2 : val_main_v39 (F := Ideal) x0 x1 x2 x3 x4 = Sage.aggM h100000 (sCol x1) (tCol x1) (Sage.hidRM h100000 (sCol x1) (tCol x1) x0 x2 x4 x3) := by
  funext i
  obtain ⟨v, k, rfl⟩ : ∃ (v : Fin 100000) (k : Fin 128), i = ix2 v k := ⟨i 0, i 1, eq_ix2 i⟩
  unfold val_main_v39
  exact Sage.seg_sum2 h100000 _ rfl rfl rfl rfl _ (fun i => Sage.bcast_scalar _ _ i) _ _ (Sage.hidRM h100000 (sCol x1) (tCol x1) x0 x2 x4 x3) _
    (fun e j => (Sage.gather_src h100000 _ rfl rfl rfl rfl rfl rfl (val_main_v29 (F := Ideal) x0 x1 x2 x3 x4) _ e j).trans
      (congrFun (hid1 x0 x1 x2 x3 x4) _)) v k

theorem deg2 (v : Fin 100000) : val_main_v45 (F := Ideal) x1 (ix1 v) = Sage.deg (tCol x1) v := by
  rw [val_main_v45_apply, Ideal.maximumf_def, val_main_v44_apply, val_main_cst_9_apply, Ideal.ofBits_def]
  unfold val_main_v43
  exact Sage.seg_deg _ rfl rfl rfl rfl _ (fun i => Sage.bcast_scalar _ _ i) _ _ (fun j => Sage.bcast_scalar _ _ j) v

theorem mean2 (v : Fin 100000) (k : Fin 128) : val_main_v48 (F := Ideal) x0 x1 x2 x3 x4 (ix2 v k)
    = Ideal.div (Sage.agg h100000 (sCol x1) (tCol x1) (Sage.hidRM h100000 (sCol x1) (tCol x1) x0 x2 x4 x3) v k) (Sage.deg (tCol x1) v) := by
  rw [val_main_v48_apply, Ideal.hostDivf_def, agg2, val_main_v47_apply, ix_47, val_main_v46_apply, ix_46, deg2]
  rfl

/-- The logits. -/
theorem logits1 (v : Fin 100000) (q : Fin 16) : val_main_v54 (F := Ideal) x0 x1 x2 x3 x4 x5 x6 x7 (ix2 v q)
    = Sage.logitR h100000 (sCol x1) (tCol x1) x0 x2 x4 x3 x5 x7 x6 v q := by
  rw [val_main_v54_apply, val_main_v52_apply, val_main_v49_apply, val_main_v53_apply, val_main_v51_apply,
    val_main_v50_apply, ix_51, hid1, Ideal.addf_def, Ideal.addf_def]
  unfold Sage.logitR
  simp only [lix_49, rix_49, lix_53, rix_53, mean2]
  rfl

/-! ## The log-softmax -/

/-- The reduction's shape fact in the form the row-maximum reading takes. -/
theorem reduces_rows : Shape.Reduces S100000x16 [1] S100000 := by
  obtain ⟨h, f⟩ := reducesTo_S100000x16_S100000_d1
  exact ⟨h, Nat.one_pos, f⟩

/-- The row maximum, taken once more against -∞, repeated along the row. -/
theorem rowmax1 (v : Fin 100000) (q : Fin 16) : val_main_call1_v4 (F := Ideal) x0 x1 x2 x3 x4 x5 x6 x7 (ix2 v q)
    = max (Ideal.ofBits .f32 0xFF800000#32)
        ((Finset.univ : Finset (Fin 16)).fold max ⊥ (fun q' => val_main_v54 (F := Ideal) x0 x1 x2 x3 x4 x5 x6 x7 (ix2 v q'))) := by
  rw [val_main_call1_v4_apply, val_main_call1_v3_apply, ix_c4, val_main_call1_v2_apply, Ideal.maximumf_def,
    val_main_call1_v1_apply, val_main_call1_cst_0_apply, Ideal.ofBits_def]
  unfold val_main_call1_v0
  refine congrArg (max (Ideal.ofBits .f32 0xFF800000#32)) ?_
  refine (Gcn.Lib.hostRowMax_apply _ _ _ reduces_rows _ v).trans ?_
  rw [val_main_call1_cst_apply, Ideal.ofBits_def, Gcn.Lib.ofBits_neg_inf_f32]

/-- The logarithm of the sum of the exponentials of the shifted row, repeated along the row. -/
theorem logsum1 (v : Fin 100000) (q : Fin 16) : val_main_call1_v10 (F := Ideal) x0 x1 x2 x3 x4 x5 x6 x7 (ix2 v q)
    = Ideal.log (∑ k : Fin 16, Ideal.exp (val_main_call1_v5 (F := Ideal) x0 x1 x2 x3 x4 x5 x6 x7 (ix2 v k))) := by
  rw [val_main_call1_v10_apply, val_main_call1_v9_apply, Ideal.hostUnary_log_def, val_main_call1_v8_apply, ix_c10,
    val_main_call1_v7_apply, val_main_call1_cst_1_apply, Ideal.ofBits_def, Ideal.ofBits_zero_f32, zero_add]
  refine congrArg Ideal.log (Finset.sum_congr rfl fun k _ => ?_)
  rw [ix_c7, val_main_call1_v6_apply, Ideal.hostUnary_exp_def]

/-- The last stage at an entry: the log-softmax of the row of logits. -/
theorem out1_apply (v : Fin 100000) (q : Fin 16) : val_main_v55 (F := Ideal) x0 x1 x2 x3 x4 x5 x6 x7 (ix2 v q)
    = Sage.outR h100000 (sCol x1) (tCol x1) x0 x2 x4 x3 x5 x7 x6 v q := by
  rw [val_main_v55_apply, Ideal.subf_def, logsum1, val_main_call1_v5_apply, Ideal.subf_def, rowmax1]
  unfold Sage.outR Sage.lsm
  simp only [val_main_call1_v5_apply, Ideal.subf_def, rowmax1, logits1]

/-- THE LAST STAGE: the second arrangement of the argument arrays. -/
theorem out1 : val_main_v55 (F := Ideal) x0 x1 x2 x3 x4 x5 x6 x7
    = fun i => Sage.outR h100000 (sCol x1) (tCol x1) x0 x2 x4 x3 x5 x7 x6 (i 0) (i 1) := by
  funext i
  obtain ⟨v, q, rfl⟩ : ∃ (v : Fin 100000) (q : Fin 16), i = ix2 v q := ⟨i 0, i 1, eq_ix2 i⟩
  exact out1_apply x0 x1 x2 x3 x4 x5 x6 x7 v q

end Cert.ReferenceIdeal.RefSide

end
-- ==== Proof.Finite.lean ====
/-
  From the precondition to real numbers.

  The precondition is a conjunction, one conjunct per float argument: every entry's absolute value is below +∞
  (an "all" reduction of the comparisons). An extended real whose absolute value max(x, -x) is below +∞ is neither
  infinity, so it is a real number. The joining law of the two arrangements needs this of the features, the first
  layer's weights and bias, and the projection weights.
-/
import proofs.«162514_j56891136803141_2_alg».proof.Pre_finite_inputs
import proofs.«162514_j56891136803141_2_alg».proof.Proof.Spec
import proofs.«162514_j56891136803141_2_alg».proof.Proof.SegSum
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic Idealize.ShloMosaic.ValueIdx

/-- A rank-zero array has one index. -/
instance : Subsingleton S_.Idx := ⟨fun a b => funext fun d => d.elim0⟩

/-- An extended real whose absolute value is below the f32 word of +∞ is a real number. -/
theorem isR_of_abs_lt_inf (x : EReal)
    (h : Ideal.cmp .olt (max x (-x)) (Ideal.ofBits .f32 0x7F800000#32) = 1#1) : Sage.IsR x := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by simp [Ideal.cmp, hn]
    rw [h0] at h
    exact absurd h (by decide)
  induction x using EReal.rec
  · exact absurd hlt (by simp)
  · exact ⟨_, rfl⟩
  · exact absurd hlt (by simp)

/-- One conjunct of the precondition: the "all" of the comparisons gives every entry real. -/
theorem all_real {s : Shape} {axes : List (Fin s.rank)} (a : FVec Ideal s .f32) (hb : S_.BroadcastsInDim s ![])
    (hr : s.ReducesTo axes S_) (hu : 0 < S_.numel) (init : IVec S_ 1)
    (e : Host.reduce IntOp.andi
        (cmpf .olt (Host.absf a) (broadcastInDim s ![] hb (constant (F := Ideal) S_ .f32 0x7F800000#32))) init hr hu ix0 = 1#1)
    (i : s.Idx) : Sage.IsR (a i) := by
  have h1 := Host.reduce_andi_all _ init hr hu ix0 e i
  have h2 : Ideal.cmp .olt (max (a i) (-(a i)))
      (broadcastInDim s ![] hb (constant (F := Ideal) S_ .f32 0x7F800000#32) i) = 1#1 := h1
  rw [Sage.bcast_scalar] at h2
  exact isR_of_abs_lt_inf _ h2

variable [Facts]

/-- Under the precondition the features, the first layer's weights and bias and the projection weights are real. -/
theorem reals_of_pre (a0 : FVec Ideal S100000x128 .f32) (a1 : IVec S2x600000 32) (a2 : FVec Ideal S128x128 .f32)
    (a3 : FVec Ideal S128 .f32) (a4 : FVec Ideal S128x128 .f32) (a5 : FVec Ideal S128x16 .f32)
    (a6 : FVec Ideal S16 .f32) (a7 : FVec Ideal S128x16 .f32)
    (h : fn (F := Ideal) a0 a1 a2 a3 a4 a5 a6 a7 = fun _ => 1#1) :
    (∀ i, Sage.IsR (a0 i)) ∧ (∀ i, Sage.IsR (a2 i)) ∧ (∀ i, Sage.IsR (a3 i)) ∧ (∀ i, Sage.IsR (a4 i))
      ∧ (∀ i, Sage.IsR (a5 i)) := by
  have h0 := congrFun h ix0
  dsimp only [fn, fn_part1] at h0
  obtain ⟨h0, _r7⟩ := IntOp.andi_eq_one.mp h0
  obtain ⟨h0, _r6⟩ := IntOp.andi_eq_one.mp h0
  obtain ⟨h0, r5⟩ := IntOp.andi_eq_one.mp h0
  obtain ⟨h0, r4⟩ := IntOp.andi_eq_one.mp h0
  obtain ⟨h0, r3⟩ := IntOp.andi_eq_one.mp h0
  obtain ⟨r0, r2⟩ := IntOp.andi_eq_one.mp h0
  exact ⟨all_real a0 _ _ _ _ r0, all_real a2 _ _ _ _ r2, all_real a3 _ _ _ _ r3, all_real a4 _ _ _ _ r4,
    all_real a5 _ _ _ _ r5⟩

end Cert.Pre_finite_inputs.Finite

end
-- ==== Proof.lean ====
/-
  A two-layer mean-aggregation graph network with a log-softmax read-out: the kernel against its reference.

  Both programs take node features x : [100000, 128], an edge list [2, 600000] of source and destination words, and two
  layers' weights and biases. A layer averages, for every node, the rows of its in-neighbours (a gather at the source
  words, an accumulating scatter at the destination words, a division by the in-degree clamped below by one), applies one
  weight matrix to the average and another to the node's own row, and adds a bias; the first layer is rectified, the second
  is followed by a row-wise log-softmax.

  The kernel runs the dense half of each layer in a Pallas region, tile by tile over the nodes, and differs from the
  reference in two places: it multiplies a segment sum by the reciprocal of the clamped degree where the reference divides
  (the same product, the degree being a nonzero real), and it projects the hidden rows through the second layer's
  aggregation weights BEFORE the segment sum where the reference projects the averaged rows after it. Moving the
  projection through the sum is distributivity; on the extended reals it holds for real hidden rows and weights, and the
  hidden rows are real because the features, the first layer's weights and its bias are: that is where the precondition
  (every float input finite) is used. Changes of float format are the identity on the extended reals, the matrix unit
  accumulating into zero and the host's dot_general are the same sums, and both programs spell the log-softmax alike.

  The modules: Spec (the two arrangements entry by entry and the law that joins them), SegSum (the host's scatters as
  segment sums), Tile0 / Tile1 (a tile of each region read at an entry), Blocks0 / Blocks1 (from the tiles a region writes
  back to the whole arrays), HostK (the kernel's result through the fold of its host stretches and regions), RefStages (the
  reference's run, stretch by stretch), RefSide / RefSide2 (the reference's stages as the second arrangement), Finite (the
  precondition as real entries), and here the five claims.
-/
import proofs.«162514_j56891136803141_2_alg».proof.Defs
import proofs.«162514_j56891136803141_2_alg».proof.Proof.Gen.Kernel
import proofs.«162514_j56891136803141_2_alg».proof.Proof.Gen.Kernel.Skeleton
import proofs.«162514_j56891136803141_2_alg».proof.Proof.Gen.Kernel.Launch
import proofs.«162514_j56891136803141_2_alg».proof.Proof.Gen.Kernel.Points
import proofs.«162514_j56891136803141_2_alg».proof.Proof.Gen.Kernel.Frame
import proofs.«162514_j56891136803141_2_alg».proof.Proof.Gen.KernelIdeal
import proofs.«162514_j56891136803141_2_alg».proof.Proof.Gen.KernelIdeal.Skeleton
import proofs.«162514_j56891136803141_2_alg».proof.Proof.Gen.KernelIdeal.Launch
import proofs.«162514_j56891136803141_2_alg».proof.Proof.Gen.KernelIdeal.Points
import proofs.«162514_j56891136803141_2_alg».proof.Proof.Gen.KernelIdeal.Frame
import proofs.«162514_j56891136803141_2_alg».proof.Proof.Gen.ReferenceIdeal
import proofs.«162514_j56891136803141_2_alg».proof.Proof.Gen.Pre_finite_inputs
import proofs.«162514_j56891136803141_2_alg».proof.Proof.KernelRun
import proofs.«162514_j56891136803141_2_alg».proof.Proof.HostK
import proofs.«162514_j56891136803141_2_alg».proof.Proof.RefStages
import proofs.«162514_j56891136803141_2_alg».proof.Proof.RefSide2
import proofs.«162514_j56891136803141_2_alg».proof.Proof.Finite
import Idealize.ShloMosaic.Adequacy
import Idealize.ShloMosaic.Init

set_option maxRecDepth 16384
set_option maxHeartbeats 2000000

noncomputable section

namespace Cert.Proof

open Idealize.ShloMosaic Idealize.ShloMosaic.TcCoe Idealize.SL.Sem

/-! ## The two results are one function of the arguments -/

/-- The two programs build the source and destination index columns out of the edge list by the same operations. -/
theorem src_cols (a1 : (⟨Cert.KernelIdeal.S2x600000, .i32⟩ : BufTy).Contents (Elt Ideal)) :
    Cert.ReferenceIdeal.RefSide.sCol a1 = Cert.KernelIdeal.HostSide.srcCol a1 := rfl
theorem dst_cols (a1 : (⟨Cert.KernelIdeal.S2x600000, .i32⟩ : BufTy).Contents (Elt Ideal)) :
    Cert.ReferenceIdeal.RefSide.tCol a1 = Cert.KernelIdeal.HostSide.dstCol a1 := rfl

/-- Under the precondition, the reference's last stage of the kernel's argument arrays is what the kernel leaves in its
    result buffer. -/
theorem results_agree (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.ReadP.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Gen.W4 m ρ c (Proc.devRef .tc Cert.KernelIdeal.main_v38) := by
  obtain ⟨h0, h2, h3, h4, h5⟩ := Cert.Pre_finite_inputs.Finite.reals_of_pre _ _ _ _ _ _ _ _ (hpre c)
  rw [Cert.ReferenceIdeal.RefSide.out1, Cert.KernelIdeal.HostSide.result_cols, src_cols, dst_cols]
  funext i
  exact (Sage.out_eq Cert.KernelIdeal.HostSide.h100000 _ _ (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6))
    h0 h2 h4 h3 h5 (i 0) (i 1)).symm

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Stages.run m ρ)

/-- The ideal pass rewrote nothing: the ledger is empty. -/
theorem preserves : Cert.preserves_Kernel_KernelIdeal := trivial

/-- From memories agreeing on the arguments both idealized programs run, and the reference's result is the kernel's. -/
theorem algebraic : Cert.algebraic_KernelIdeal_ReferenceIdeal := by
  intro m ρ m' ρ' hpre hagree
  refine ⟨fun c => Cert.KernelIdeal.Gen.W4 m ρ c (Proc.devRef .tc Cert.KernelIdeal.main_v38),
    Cert.KernelIdeal.Result.run_result m ρ, ?_⟩
  refine (θ_run Cert.ReferenceIdeal.defs _ _).mono (fun _ h c => ⟨(h c).1.trans ?_, (h c).2⟩)
    (Cert.ReferenceIdeal.Stages.run m' ρ')
  obtain ⟨e0, e1, e2, e3, e4, e5, e6, e7⟩ := hagree c
  rw [e0, e1, e2, e3, e4, e5, e6, e7]
  exact results_agree m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
